-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel

variable [Facts]

def fn {F : FTy → Type} [FloatOps F] (main_arg0 : FVec F S256x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  main_v3
-- ==== Kernel.lean ====
abbrev S256x512 : Shape := ⟨2, ![256, 512]⟩
abbrev S512x256 : Shape := ⟨2, ![512, 256]⟩
abbrev S256x262144 : Shape := ⟨2, ![256, 262144]⟩
abbrev S16x256 : Shape := ⟨2, ![16, 256]⟩
abbrev S256x8192 : Shape := ⟨2, ![256, 8192]⟩
abbrev S256x16 : Shape := ⟨2, ![256, 16]⟩
abbrev S256x1 : Shape := ⟨2, ![256, 1]⟩
abbrev S256x263168 : Shape := ⟨2, ![256, 263168]⟩

abbrev nBuf : Space → Nat
  | .hbm => 6
  | .vmem => 7
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .hbm, ⟨2, _⟩ => ⟨S256x512, .f32⟩
  | .hbm, ⟨3, _⟩ => ⟨S256x262144, .f32⟩
  | .hbm, ⟨4, _⟩ => ⟨S256x512, .f32⟩
  | .hbm, ⟨5, _⟩ => ⟨S256x263168, .f32⟩
  | .local _ .vmem, ⟨0, _⟩ => ⟨S256x512, .f32⟩
  | .local _ .vmem, ⟨1, _⟩ => ⟨S16x256, .f32⟩
  | .local _ .vmem, ⟨2, _⟩ => ⟨S16x256, .f32⟩
  | .local _ .vmem, ⟨3, _⟩ => ⟨S256x512, .f32⟩
  | .local _ .vmem, ⟨4, _⟩ => ⟨S256x8192, .f32⟩
  | .local _ .vmem, ⟨5, _⟩ => ⟨S256x8192, .f32⟩
  | .local _ .vmem, ⟨6, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c31_i32 : BitVec 32 := 31#32
  let v71 : BitVec 1 := Scalar.cmpi .eq arg0 c31_i32
  let v72 : BitVec 32 := Scalar.extui v71
  let c0_i32_21 : BitVec 32 := 0#32
  let v73 : BitVec 1 := Scalar.cmpi .ne v72 c0_i32_21
  v73

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  transposes_S256x512_S512x256_1_0 : S256x512.Transposes [1, 0] S512x256
  inb_S256x512_S256x512_0_0 : ∀ a, (![0, 0] : Fin 2 → Nat) a + S256x512.size a ≤ S256x512.size a
  h_S256x512 : 0 < S256x512.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  transposes_S16x256_p1_0_S256x16 : S16x256.Transposes [1, 0] S256x16
  slices_S256x16_o0_0_S256x1 : S256x16.Slices ![0, 0] S256x1
  broadcasts_S256x1_S256x512 : S256x1.Broadcasts S256x512
  inb_S256x8192_S256x512_0_0 : ∀ a, (![0, 0] : Fin 2 → Nat) a + S256x512.size a ≤ S256x8192.size a
  slices_S256x16_o0_1_S256x1 : S256x16.Slices ![0, 1] S256x1
  inb_S256x8192_S256x512_0_512 : ∀ a, (![0, 512] : Fin 2 → Nat) a + S256x512.size a ≤ S256x8192.size a
  slices_S256x16_o0_2_S256x1 : S256x16.Slices ![0, 2] S256x1
  inb_S256x8192_S256x512_0_1024 : ∀ a, (![0, 1024] : Fin 2 → Nat) a + S256x512.size a ≤ S256x8192.size a
  slices_S256x16_o0_3_S256x1 : S256x16.Slices ![0, 3] S256x1
  inb_S256x8192_S256x512_0_1536 : ∀ a, (![0, 1536] : Fin 2 → Nat) a + S256x512.size a ≤ S256x8192.size a
  slices_S256x16_o0_4_S256x1 : S256x16.Slices ![0, 4] S256x1
  inb_S256x8192_S256x512_0_2048 : ∀ a, (![0, 2048] : Fin 2 → Nat) a + S256x512.size a ≤ S256x8192.size a
  slices_S256x16_o0_5_S256x1 : S256x16.Slices ![0, 5] S256x1
  inb_S256x8192_S256x512_0_2560 : ∀ a, (![0, 2560] : Fin 2 → Nat) a + S256x512.size a ≤ S256x8192.size a
  slices_S256x16_o0_6_S256x1 : S256x16.Slices ![0, 6] S256x1
  inb_S256x8192_S256x512_0_3072 : ∀ a, (![0, 3072] : Fin 2 → Nat) a + S256x512.size a ≤ S256x8192.size a
  slices_S256x16_o0_7_S256x1 : S256x16.Slices ![0, 7] S256x1
  inb_S256x8192_S256x512_0_3584 : ∀ a, (![0, 3584] : Fin 2 → Nat) a + S256x512.size a ≤ S256x8192.size a
  slices_S256x16_o0_8_S256x1 : S256x16.Slices ![0, 8] S256x1
  inb_S256x8192_S256x512_0_4096 : ∀ a, (![0, 4096] : Fin 2 → Nat) a + S256x512.size a ≤ S256x8192.size a
  slices_S256x16_o0_9_S256x1 : S256x16.Slices ![0, 9] S256x1
  inb_S256x8192_S256x512_0_4608 : ∀ a, (![0, 4608] : Fin 2 → Nat) a + S256x512.size a ≤ S256x8192.size a
  slices_S256x16_o0_10_S256x1 : S256x16.Slices ![0, 10] S256x1
  inb_S256x8192_S256x512_0_5120 : ∀ a, (![0, 5120] : Fin 2 → Nat) a + S256x512.size a ≤ S256x8192.size a
  slices_S256x16_o0_11_S256x1 : S256x16.Slices ![0, 11] S256x1
  inb_S256x8192_S256x512_0_5632 : ∀ a, (![0, 5632] : Fin 2 → Nat) a + S256x512.size a ≤ S256x8192.size a
  slices_S256x16_o0_12_S256x1 : S256x16.Slices ![0, 12] S256x1
  inb_S256x8192_S256x512_0_6144 : ∀ a, (![0, 6144] : Fin 2 → Nat) a + S256x512.size a ≤ S256x8192.size a
  slices_S256x16_o0_13_S256x1 : S256x16.Slices ![0, 13] S256x1
  inb_S256x8192_S256x512_0_6656 : ∀ a, (![0, 6656] : Fin 2 → Nat) a + S256x512.size a ≤ S256x8192.size a
  slices_S256x16_o0_14_S256x1 : S256x16.Slices ![0, 14] S256x1
  inb_S256x8192_S256x512_0_7168 : ∀ a, (![0, 7168] : Fin 2 → Nat) a + S256x512.size a ≤ S256x8192.size a
  slices_S256x16_o0_15_S256x1 : S256x16.Slices ![0, 15] S256x1
  inb_S256x8192_S256x512_0_7680 : ∀ a, (![0, 7680] : Fin 2 → Nat) a + S256x512.size a ≤ S256x8192.size a
  concatenates_S256x512_S256x262144_S256x512_S256x263168_d1 : Shape.Concatenates [S256x512, S256x262144, S256x512] S256x263168 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S512x256.size a
  hwx0_1 : ∀ i : grid0.Coords, EltTy.bits .f32 = 32 ∨ (Rect.block (s := S512x256) S16x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S256x262144.size a
  hwx0_3 : ∀ i : grid0.Coords, EltTy.bits .f32 = 32 ∨ (Rect.block (s := S256x262144) S256x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)

variable [Facts₀]

abbrev win0_0 : Pipeline.Window sig grid0 :=
  Pipeline.Window.ofSpec (Memref.whole main_arg0) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S256x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S256x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S256x512.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond1 i == 1#1) | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x512 : Shape := ⟨2, ![256, 512]⟩
abbrev S256x512x1 : Shape := ⟨3, ![256, 512, 1]⟩
abbrev S256x1x512 : Shape := ⟨3, ![256, 1, 512]⟩
abbrev S256x512x512 : Shape := ⟨3, ![256, 512, 512]⟩
abbrev S256x262144 : Shape := ⟨2, ![256, 262144]⟩
abbrev S256x263168 : Shape := ⟨2, ![256, 263168]⟩

abbrev nBuf : Space → Nat
  | .hbm => 9
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512x1, .f32⟩
  | .hbm, ⟨3, _⟩ => ⟨S256x1x512, .f32⟩
  | .hbm, ⟨4, _⟩ => ⟨S256x512x512, .f32⟩
  | .hbm, ⟨5, _⟩ => ⟨S256x512x512, .f32⟩
  | .hbm, ⟨6, _⟩ => ⟨S256x512x512, .f32⟩
  | .hbm, ⟨7, _⟩ => ⟨S256x262144, .f32⟩
  | .hbm, ⟨8, _⟩ => ⟨S256x263168, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [FloatOps F]

class Facts₀ : Prop where
  bcast_S256x512_S256x512x1_0_1 : S256x512.BroadcastsInDim S256x512x1 (![0, 1] : Fin 2 → Fin S256x512x1.rank)
  bcast_S256x512_S256x1x512_0_2 : S256x512.BroadcastsInDim S256x1x512 (![0, 2] : Fin 2 → Fin S256x1x512.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  shapeCasts_S256x512x512_S256x262144 : S256x512x512.ShapeCasts S256x262144
  concatenates_S256x512_S256x262144_S256x512_S256x263168_d1 : Shape.Concatenates [S256x512, S256x262144, S256x512] S256x263168 1

variable [Facts₀]

class Facts : Prop extends Facts₀ where

variable [Facts]
-- ==== Proof.Kernel.Around.lean ====
/-
  The program around its one launch. The entry function first transposes the argument x (256 x 512) on the
  host, then launches the kernel on a grid of 32 points over five windows — x whole, a 16-row tile of the
  transpose, and three results: sin x (whole, stored at the first point only), the products x[b,i]*x[b,j]
  (a 256 x 8192 column block per point) and a copy of x (whole, stored at the last point only) — and finally
  concatenates the three results along the columns.
  Here: the buffers' contents when the launch is entered, that the entry function is "host lines, the launch,
  host lines", that the lines after the launch neither allocate nor write a windowed array, each window's block
  at a point, the two input windows' staging buffers holding their blocks at every point, the two conditions of
  the body decided over the grid (first point; last point), and where the two conditional results are idle.
-/
import proofs.«135478_j13821204759158_1_alg».proof.Proof.Gen.Kernel.Launch
import proofs.«135478_j13821204759158_1_alg».proof.Proof.Gen.Kernel.Skeleton
import proofs.«135478_j13821204759158_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the launch -/

/-- The buffers' contents when the launch is entered: the argument as given, the transpose computed. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the transpose, the launch, the concatenation: it reduces to the launch continued by
    the concatenation, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The concatenation touches the windowed arrays and the result buffer only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no windowed array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nary_writes, Finset.mem_singleton] <;> exact StableHlo.devRef_ne_of_ne (by decide)

/-- The transpose writes its own result: the launch finds the argument as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of x holds x at every point (it is fetched once, at the first, and only read). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the transposed tile holds the point's tile (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument ends as given -/

/-- From a run of the whole entry function whose post has every windowed array at what the write-backs
    computed: the argument x is an input window's array, never written back, so it ends as the launch found it,
    which is as it was given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's two conditions -/

/-- "This is the first point": under it the body stores sin x. -/
abbrev cond0_0 (i : grid0.Coords) : Prop := k0_cond1 i = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last point": under it the body stores the copy of x. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the results are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- sin x is stored at the first point, -/
theorem liveAt0_2 : ∀ t : Fin cfg0.N, cond0_0 (grid0.coords t) → cfg0.idle 2 (grid0.coords t) = false := by decide +kernel
/-- and at no other. -/
theorem idleAt0_2 : ∀ t : Fin cfg0.N, ¬cond0_0 (grid0.coords t) → cfg0.idle 2 (grid0.coords t) = true := by decide +kernel
/-- The copy of x is stored at the last point, -/
theorem liveAt0_4 : ∀ t : Fin cfg0.N, cond0_1 (grid0.coords t) → cfg0.idle 4 (grid0.coords t) = false := by decide +kernel
/-- and at no other. -/
theorem idleAt0_4 : ∀ t : Fin cfg0.N, ¬cond0_1 (grid0.coords t) → cfg0.idle 4 (grid0.coords t) = true := by decide +kernel
/-- Both whole-array results are written back at the last point only. -/
theorem noFlush0_2 : ∀ t : Fin cfg0.N, ¬cond0_1 (grid0.coords t) → (cfg0.win 2).flush t = false := by decide +kernel
theorem noFlush0_4 : ∀ t : Fin cfg0.N, ¬cond0_1 (grid0.coords t) → (cfg0.win 4).flush t = false := by decide +kernel
theorem flushAt0_2 : ∀ t : Fin cfg0.N, cond0_1 (grid0.coords t) → (cfg0.win 2).flush t = true := by decide +kernel

/-! ## The staging buffers at a point -/

/-- One staging buffer of each result, through which its contents are stated. -/
abbrev VO0_2 : View sig .tc .vmem S256x512 .f32 := (Memref.whole cc0_stg2_0 : Memref sig .tc .vmem S256x512 .f32).view
abbrev VO0_3 : View sig .tc .vmem S256x8192 .f32 := (Memref.whole cc0_stg3_0 : Memref sig .tc .vmem S256x8192 .f32).view
abbrev VO0_4 : View sig .tc .vmem S256x512 .f32 := (Memref.whole cc0_stg4_0 : Memref sig .tc .vmem S256x512 .f32).view

abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .f32 := win0_4.stage (cfg0.slots t 4)
abbrev hs0_4 (t : Fin cfg0.N) : (ms0_4 t).IsWhole := hstage0_4 ((cfg0.slots t 4).cast nbuf0_4)

end Cert.Kernel.Around

end
-- ==== Proof.Kernel.RunA.lean ====
/-
  The body at the FIRST grid point: it stores sin x into the first result's buffer, the sixteen products
  x[:,16t+l] * x (l = 0..15) side by side into the second's, and leaves the third's alone.
-/
import proofs.«135478_j13821204759158_1_alg».proof.Proof.Kernel.Around

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in this case, on any whole staging buffers: the stores' pieces (last first) are found by
    running the body and depend on the two input blocks only; a buffer the case does not store into comes back
    as it was, whatever it held. -/
noncomputable def kernelRun0_A (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) :
    Σ' (L2 : List (View.Piece (Elt F) S256x512 .f32)), { L3 : List (View.Piece (Elt F) S256x8192 .f32) //
      ∀ (y4 : Vec F S256x512 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare y4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare y4) -∗ K ⟨⟩))
          ⊢ wp frame (wpE (defs₀ (F := F)) Variants.none c none) E (cc0__kernel i arg1 harg1 arg2 harg2 arg3 harg3 arg4 harg4 arg5 harg5) K } := by
  refine ⟨?_, ?_, fun y4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; isplitr; · ipureintro; exact harg5.read_unread _
    iexact H4

end Cert.Kernel.Around

end
-- ==== Proof.Kernel.RunB.lean ====
/-
  The body at a MIDDLE grid point (neither first nor last): it stores the sixteen products into the second
  result's buffer and leaves the first and third results' buffers alone.
-/
import proofs.«135478_j13821204759158_1_alg».proof.Proof.Kernel.RunA

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in this case, on any whole staging buffers: the stores' pieces (last first) are found by
    running the body and depend on the two input blocks only; a buffer the case does not store into comes back
    as it was, whatever it held. -/
noncomputable def kernelRun0_B (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : ¬cond0_1 i)
    (x0 : Vec F S256x512 .f32) (x1 : Vec F S16x256 .f32) :
    { L3 : List (View.Piece (Elt F) S256x8192 .f32) //
      ∀ (y2 : Vec F S256x512 .f32) (y4 : Vec F S256x512 .f32) (E : Set ℕ) (K : PUnit → sProp 𝕄),
        iprop(owns (c : Thread nD τ) arg1 fullShare x0 ∗ owns (c : Thread nD τ) arg2 fullShare x1 ∗ owns (c : Thread nD τ) arg3 fullShare y2 ∗ (∃ d, owns (c : Thread nD τ) arg4 fullShare d) ∗ owns (c : Thread nD τ) arg5 fullShare y4
            ∗ (iprop(owns (c : Thread nD τ) arg1 fullShare x0 ∗ owns (c : Thread nD τ) arg2 fullShare x1 ∗ owns (c : Thread nD τ) arg3 fullShare y2 ∗ (∃ f, arg4.view.loc (c : Thread nD τ) ↦[arg4.view.set]{fullShare} arg4.view.writes (Elt F) f L3) ∗ owns (c : Thread nD τ) arg5 fullShare y4) -∗ K ⟨⟩))
          ⊢ wp frame (wpE (defs₀ (F := F)) Variants.none c none) E (cc0__kernel i arg1 harg1 arg2 harg2 arg3 harg3 arg4 harg4 arg5 harg5) K } := by
  refine ⟨?_, fun y2 y4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact H4

end Cert.Kernel.Around

end
-- ==== Proof.Kernel.RunC.lean ====
/-
  The body at the LAST grid point: it stores the sixteen products into the second result's buffer and the
  copy of x into the third's, and leaves the first's alone.
-/
import proofs.«135478_j13821204759158_1_alg».proof.Proof.Kernel.RunB

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in this case, on any whole staging buffers: the stores' pieces (last first) are found by
    running the body and depend on the two input blocks only; a buffer the case does not store into comes back
    as it was, whatever it held. -/
noncomputable def kernelRun0_C (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) :
    Σ' (L3 : List (View.Piece (Elt F) S256x8192 .f32)), { L4 : List (View.Piece (Elt F) S256x512 .f32) //
      ∀ (y2 : Vec F S256x512 .f32) (E : Set ℕ) (K : PUnit → sProp 𝕄),
        iprop(owns (c : Thread nD τ) arg1 fullShare x0 ∗ owns (c : Thread nD τ) arg2 fullShare x1 ∗ owns (c : Thread nD τ) arg3 fullShare y2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare y2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__kernel i arg1 harg1 arg2 harg2 arg3 harg3 arg4 harg4 arg5 harg5) K } := by
  refine ⟨?_, ?_, fun y2 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.Kernel.Around

end
-- ==== Proof.Kernel.Whole.lean ====
/-
  The proof data of the launch and the run of the whole entry function.
  After the body at a point the staging buffers hold: x and the point's tile of the transpose (inputs, only
  read); sin x in the first result's buffer from the first point on (stored there, untouched afterwards, written
  back at the last point); the point's sixteen products in the second result's buffer (stored and written back at
  every point); the copy of x in the third's at the last point (stored and written back there). Between the first
  and the last point the first result's single staging buffer is idle, so what the last point finds in it is
  what the first point stored: an induction over the points. The body's triple at a point is the run of its
  case; the launch theorem then gives every windowed array at what the write-backs computed, the concatenation
  applied after it, and the argument unchanged.
-/
import proofs.«135478_j13821204759158_1_alg».proof.Proof.Kernel.RunC

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the results' buffers -/

/-- The pieces case A stores into result window 2's buffer tile it, so they cover it. -/
theorem cover0_A_2 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) (y : S256x512.Idx) :
    ∃ pc ∈ (kernelRun0_A c i arg1 harg1 arg2 harg2 arg3 harg3 arg4 harg4 arg5 harg5 hc0 hc1 x0 x1).1, y ∈ pc.1.set :=
  View.cover_of_tiledL (kernelRun0_A c i arg1 harg1 arg2 harg2 arg3 harg3 arg4 harg4 arg5 harg5 hc0 hc1 x0 x1).1 S256x512.size (by sl_kernel_rfl) y

/-- What case A leaves in result window 2's buffer: its pieces read back (over anything: they cover it). -/
def out0_A_2 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) : Vec F S256x512 .f32 :=
  VO0_2.read (Elt F) (VO0_2.writes (Elt F) VO0_2.junk (kernelRun0_A c i arg1 harg1 arg2 harg2 arg3 harg3 arg4 harg4 arg5 harg5 hc0 hc1 x0 x1).1)

/-- The pieces case A stores into result window 3's buffer tile it, so they cover it. -/
theorem cover0_A_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) (y : S256x8192.Idx) :
    ∃ pc ∈ (kernelRun0_A c i arg1 harg1 arg2 harg2 arg3 harg3 arg4 harg4 arg5 harg5 hc0 hc1 x0 x1).2.1, y ∈ pc.1.set :=
  View.cover_of_tiledL (kernelRun0_A c i arg1 harg1 arg2 harg2 arg3 harg3 arg4 harg4 arg5 harg5 hc0 hc1 x0 x1).2.1 S256x512.size (by sl_kernel_rfl) y

/-- What case A leaves in result window 3's buffer: its pieces read back (over anything: they cover it). -/
def out0_A_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) : Vec F S256x8192 .f32 :=
  VO0_3.read (Elt F) (VO0_3.writes (Elt F) VO0_3.junk (kernelRun0_A c i arg1 harg1 arg2 harg2 arg3 harg3 arg4 harg4 arg5 harg5 hc0 hc1 x0 x1).2.1)

/-- The pieces case B stores into result window 3's buffer tile it, so they cover it. -/
theorem cover0_B_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : ¬cond0_1 i)
    (x0 : Vec F S256x512 .f32) (x1 : Vec F S16x256 .f32) (y : S256x8192.Idx) :
    ∃ pc ∈ (kernelRun0_B c i arg1 harg1 arg2 harg2 arg3 harg3 arg4 harg4 arg5 harg5 hc0 hc1 x0 x1).1, y ∈ pc.1.set :=
  View.cover_of_tiledL (kernelRun0_B c i arg1 harg1 arg2 harg2 arg3 harg3 arg4 harg4 arg5 harg5 hc0 hc1 x0 x1).1 S256x512.size (by sl_kernel_rfl) y

/-- What case B leaves in result window 3's buffer: its pieces read back (over anything: they cover it). -/
def out0_B_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : ¬cond0_1 i)
    (x0 : Vec F S256x512 .f32) (x1 : Vec F S16x256 .f32) : Vec F S256x8192 .f32 :=
  VO0_3.read (Elt F) (VO0_3.writes (Elt F) VO0_3.junk (kernelRun0_B c i arg1 harg1 arg2 harg2 arg3 harg3 arg4 harg4 arg5 harg5 hc0 hc1 x0 x1).1)

/-- The pieces case C stores into result window 3's buffer tile it, so they cover it. -/
theorem cover0_C_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) (y : S256x8192.Idx) :
    ∃ pc ∈ (kernelRun0_C c i arg1 harg1 arg2 harg2 arg3 harg3 arg4 harg4 arg5 harg5 hc0 hc1 x0 x1).1, y ∈ pc.1.set :=
  View.cover_of_tiledL (kernelRun0_C c i arg1 harg1 arg2 harg2 arg3 harg3 arg4 harg4 arg5 harg5 hc0 hc1 x0 x1).1 S256x512.size (by sl_kernel_rfl) y

/-- What case C leaves in result window 3's buffer: its pieces read back (over anything: they cover it). -/
def out0_C_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) : Vec F S256x8192 .f32 :=
  VO0_3.read (Elt F) (VO0_3.writes (Elt F) VO0_3.junk (kernelRun0_C c i arg1 harg1 arg2 harg2 arg3 harg3 arg4 harg4 arg5 harg5 hc0 hc1 x0 x1).1)

/-- The pieces case C stores into result window 4's buffer tile it, so they cover it. -/
theorem cover0_C_4 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) (y : S256x512.Idx) :
    ∃ pc ∈ (kernelRun0_C c i arg1 harg1 arg2 harg2 arg3 harg3 arg4 harg4 arg5 harg5 hc0 hc1 x0 x1).2.1, y ∈ pc.1.set :=
  View.cover_of_tiledL (kernelRun0_C c i arg1 harg1 arg2 harg2 arg3 harg3 arg4 harg4 arg5 harg5 hc0 hc1 x0 x1).2.1 S256x512.size (by sl_kernel_rfl) y

/-- What case C leaves in result window 4's buffer: its pieces read back (over anything: they cover it). -/
def out0_C_4 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) : Vec F S256x512 .f32 :=
  VO0_4.read (Elt F) (VO0_4.writes (Elt F) VO0_4.junk (kernelRun0_C c i arg1 harg1 arg2 harg2 arg3 harg3 arg4 harg4 arg5 harg5 hc0 hc1 x0 x1).2.1)

/-! ## The first and the last point -/

theorem N_pos : 0 < cfg0.N := by rw [show cfg0.N = 32 from N_0]; decide
theorem N_last : 31 < cfg0.N := by rw [show cfg0.N = 32 from N_0]; decide
abbrev tFirst : Fin cfg0.N := ⟨0, N_pos⟩
abbrev tLast : Fin cfg0.N := ⟨31, N_last⟩

theorem first_c0 : cond0_0 (grid0.coords tFirst) := (hcond0_0 tFirst).mpr rfl
theorem first_c1 : ¬cond0_1 (grid0.coords tFirst) := fun h => absurd ((hcond0_1 tFirst).mp h) (by decide)
theorem last_c0 : ¬cond0_0 (grid0.coords tLast) := fun h => absurd ((hcond0_0 tLast).mp h) (by decide)
theorem last_c1 : cond0_1 (grid0.coords tLast) := (hcond0_1 tLast).mpr rfl

/-! ## What the results' buffers hold after each point -/

/-- sin x, as the first point stores it. -/
def sinOut (c : Dev nD) : Vec F S256x512 .f32 :=
  out0_A_2 c (grid0.coords tFirst) (ms0_0 tFirst) (hs0_0 tFirst) (ms0_1 tFirst) (hs0_1 tFirst) (ms0_2 tFirst) (hs0_2 tFirst) (ms0_3 tFirst) (hs0_3 tFirst) (ms0_4 tFirst) (hs0_4 tFirst) first_c0 first_c1 (iblk m c 0 tFirst) (iblk m c 1 tFirst)

/-- The copy of x, as the last point stores it. -/
def identOut (c : Dev nD) : Vec F S256x512 .f32 :=
  out0_C_4 c (grid0.coords tLast) (ms0_0 tLast) (hs0_0 tLast) (ms0_1 tLast) (hs0_1 tLast) (ms0_2 tLast) (hs0_2 tLast) (ms0_3 tLast) (hs0_3 tLast) (ms0_4 tLast) (hs0_4 tLast) last_c0 last_c1 (iblk m c 0 tLast) (iblk m c 1 tLast)

/-- The sixteen products of point `t`, as its case stores them. -/
def pairOut (c : Dev nD) (t : Fin cfg0.N) : Vec F S256x8192 .f32 :=
  if h0 : t.val % 32 = 0 then
    out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => by have h1 := (hcond0_1 t).mp h; omega) (iblk m c 0 t) (iblk m c 1 t)
  else if h1 : t.val % 32 = 31 then
    out0_C_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t)
  else
    out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk m c 0 t) (iblk m c 1 t)

theorem pairOut_A (c : Dev nD) (t : Fin cfg0.N) (h0 : t.val % 32 = 0) (h1 : ¬t.val % 32 = 31) :
    pairOut m c t = out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) := by
  unfold pairOut; rw [dif_pos h0]
theorem pairOut_B (c : Dev nD) (t : Fin cfg0.N) (h0 : ¬t.val % 32 = 0) (h1 : ¬t.val % 32 = 31) :
    pairOut m c t = out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk m c 0 t) (iblk m c 1 t) := by
  unfold pairOut; rw [dif_neg h0, dif_neg h1]
theorem pairOut_C (c : Dev nD) (t : Fin cfg0.N) (h0 : ¬t.val % 32 = 0) (h1 : t.val % 32 = 31) :
    pairOut m c t = out0_C_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) := by
  unfold pairOut; rw [dif_neg h0, dif_pos h1]

/-! ## The launch's proof data -/

/-- On core `c`: the arrays as the launch finds them; after the body at point `t` the inputs' buffers at their
    blocks, the results' at `sinOut`, `pairOut t`, `identOut`; nothing of the kernel's own to keep. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => sinOut m c
    | ⟨3, _⟩ => pairOut m c t
    | ⟨4, _⟩ => identOut m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = sinOut m c := by dsimp only [dats]
theorem after0_3 (c : Dev nD) (t : Fin cfg0.N) : (dats m 0 c).after 3 t = pairOut m c t := by dsimp only [dats]
theorem after0_4 (c : Dev nD) (t : Fin cfg0.N) : (dats m 0 c).after 4 t = identOut m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- After the first point the first result's staging buffer holds sin x: the buffer is single, written back
    only at the last point, and idle at every point but the first, so each point finds what the one before
    found, back to what the first point stored. -/
theorem before0_2 (c : Dev nD) (t : Fin cfg0.N) (ht : t.val ≠ 0) (d) : (dats m 0 c).before 2 t d = sinOut m c := by
  obtain ⟨n, hn⟩ := t
  induction n with
  | zero => exact absurd rfl ht
  | succ k ih =>
    have hN : k + 1 < 32 := lt_of_lt_of_eq hn (show cfg0.N = 32 from N_0)
    have hk : k < cfg0.N := Nat.lt_of_succ_lt hn
    rw [(dats m 0 c).before_of_pos 2 ⟨k + 1, hn⟩ ht ((cfg0.win 2).fetch_out rfl _) d]
    have hfl : (cfg0.win 2).flush (⟨k + 1 - 1, Nat.lt_of_le_of_lt (Nat.sub_le _ _) hn⟩ : Fin cfg0.N) = false :=
      noFlush0_2 _ (fun h => by have h' := (hcond0_1 _).mp h; dsimp only at h'; omega)
    rw [hfl, if_neg Bool.false_ne_true]
    unfold Dat.left
    by_cases hk0 : k = 0
    · subst hk0
      rw [liveAt0_2 _ ((hcond0_0 _).mpr (show (0 + 1 - 1) % 32 = 0 from rfl))]
      unfold Dat.kept
      rw [Pipeline.fill_of_clip_none (cfg := cfg0) 2 _ (fun _ => rfl) d ((dats m 0 c).after 2 _), Window.fill_cut]
      dsimp only [dats]
    · rw [idleAt0_2 _ (fun h => by have h' := (hcond0_0 _).mp h; dsimp only at h'; omega)]
      exact ih hk hk0

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point is the first, a middle one or the
    last, and its case's run applies; a result the case does not store into is handed back as found — at the
    last point the first result's buffer, found at sin x, is what is written back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 3 t = owns (c : Thread nD τ) (ms0_3 t) fullShare ((dats m 0 c).after 3 t) from by
    unfold Dat.leavesExact; rw [liveAt0_3 t], after0_3]
  by_cases h0 : t.val % 32 = 0
  · have h1 : ¬t.val % 32 = 31 := by omega
    have hc0 : cond0_0 (grid0.coords t) := (hcond0_0 t).mpr h0
    have hc1 : ¬cond0_1 (grid0.coords t) := fun h => h1 ((hcond0_1 t).mp h)
    rw [show (dats m 0 c).leavesExact 2 t = owns (c : Thread nD τ) (ms0_2 t) fullShare ((dats m 0 c).after 2 t) from by
      unfold Dat.leavesExact; rw [liveAt0_2 t hc0], after0_2]
    rw [Dat.leavesExact_idle (dats m 0 c) 4 t (idleAt0_4 t hc1) (noFlush0_4 t hc1)]
    rw [pairOut_A m c t h0 h1]
    obtain rfl : t = tFirst := Fin.ext (show t.val = 0 by omega)
    unfold sinOut out0_A_2 out0_A_3; (try dsimp only)
    iintro ⟨HΦ, Ho, ⟨%d0, H0⟩, ⟨%d1, H1⟩, ⟨%d2, H2⟩, ⟨%d3, H3⟩, ⟨%d4, H4⟩⟩
    iapply ((kernelRun0_A c (grid0.coords tFirst) _ _ _ _ _ _ _ _ _ _ hc0 hc1 (iblk m c 0 tFirst) (iblk m c 1 tFirst)).2.2 _ Set.univ _)
    isplitl [H0]; · iexact H0
    isplitl [H1]; · iexact H1
    isplitl [H2]; · iexists _; iexact H2
    isplitl [H3]; · iexists _; iexact H3
    isplitl [H4]; · iexact H4
    iintro ⟨H0, H1, ⟨%e2, H2⟩, ⟨%e3, H3⟩, H4⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _)
    iexists _; iexact H4
  · have hc0 : ¬cond0_0 (grid0.coords t) := fun h => h0 ((hcond0_0 t).mp h)
    have ht : t.val ≠ 0 := fun h => h0 (by rw [h])
    by_cases h1 : t.val % 32 = 31
    · have hc1 : cond0_1 (grid0.coords t) := (hcond0_1 t).mpr h1
      rw [show (dats m 0 c).leavesExact 2 t = owns (c : Thread nD τ) (ms0_2 t) fullShare ((dats m 0 c).after 2 t) from by
        unfold Dat.leavesExact; rw [idleAt0_2 t hc0, flushAt0_2 t hc1], after0_2]
      rw [show (dats m 0 c).leavesExact 4 t = owns (c : Thread nD τ) (ms0_4 t) fullShare ((dats m 0 c).after 4 t) from by
        unfold Dat.leavesExact; rw [liveAt0_4 t hc1], after0_4]
      simp only [before0_2 m c t ht]
      rw [pairOut_C m c t h0 h1]
      obtain rfl : t = tLast := Fin.ext (show t.val = 31 by omega)
      unfold identOut out0_C_3 out0_C_4; (try dsimp only)
      iintro ⟨HΦ, Ho, ⟨%d0, H0⟩, ⟨%d1, H1⟩, ⟨%d2, H2⟩, ⟨%d3, H3⟩, ⟨%d4, H4⟩⟩
      iapply ((kernelRun0_C c (grid0.coords tLast) _ _ _ _ _ _ _ _ _ _ hc0 hc1 (iblk m c 0 tLast) (iblk m c 1 tLast)).2.2 _ Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _)
    · have hc1 : ¬cond0_1 (grid0.coords t) := fun h => h1 ((hcond0_1 t).mp h)
      rw [Dat.leavesExact_idle (dats m 0 c) 2 t (idleAt0_2 t hc0) (noFlush0_2 t hc1)]
      rw [Dat.leavesExact_idle (dats m 0 c) 4 t (idleAt0_4 t hc1) (noFlush0_4 t hc1)]
      rw [pairOut_B m c t h0 h1]
      unfold out0_B_3; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ hc0 hc1 (iblk m c 0 t) (iblk m c 1 t)).2 _ _ Set.univ _)
      isplitl [H0]; · iexact H0
      isplitl [H1]; · iexact H1
      isplitl [H2]; · iexact H2
      isplitl [H3]; · iexists _; iexact H3
      isplitl [H4]; · iexact H4
      iintro ⟨H0, H1, H2, ⟨%e3, H3⟩, H4⟩
      isplitl [HΦ]; · iexact HΦ
      isplitl [Ho]; · iexact Ho
      isplitl [H0]; · iexact H0
      isplitl [H1]; · iexact H1
      isplitl [H2]; · iexists _; iexact H2
      isplitl [H3]
      · unfold owns; iexists _; isplitr
        swap; · iexact H3
        ipureintro; exact View.read_writes_of_cover _ _ _ _ _ (cover0_B_3 c _ _ _ _ _ _ _ _ _ _ _ _ _ _ _)
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry function terminates, each
    windowed array ending at what the write-backs computed from the proof data and the result buffer at the
    concatenation of the three result arrays. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the entry function runs to the end, faults nowhere, and leaves its argument as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Around

end
-- ==== Proof.KernelIdeal.Around.lean ====
/-
  The program around its one launch. The entry function first transposes the argument x (256 x 512) on the
  host, then launches the kernel on a grid of 32 points over five windows — x whole, a 16-row tile of the
  transpose, and three results: sin x (whole, stored at the first point only), the products x[b,i]*x[b,j]
  (a 256 x 8192 column block per point) and a copy of x (whole, stored at the last point only) — and finally
  concatenates the three results along the columns.
  Here: the buffers' contents when the launch is entered, that the entry function is "host lines, the launch,
  host lines", that the lines after the launch neither allocate nor write a windowed array, each window's block
  at a point, the two input windows' staging buffers holding their blocks at every point, the two conditions of
  the body decided over the grid (first point; last point), and where the two conditional results are idle.
-/
import proofs.«135478_j13821204759158_1_alg».proof.Proof.Gen.KernelIdeal.Launch
import proofs.«135478_j13821204759158_1_alg».proof.Proof.Gen.KernelIdeal.Skeleton
import proofs.«135478_j13821204759158_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function around the launch -/

/-- The buffers' contents when the launch is entered: the argument as given, the transpose computed. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The entry function is the transpose, the launch, the concatenation: it reduces to the launch continued by
    the concatenation, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The concatenation touches the windowed arrays and the result buffer only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no windowed array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nary_writes, Finset.mem_singleton] <;> exact StableHlo.devRef_ne_of_ne (by decide)

/-- The transpose writes its own result: the launch finds the argument as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of x holds x at every point (it is fetched once, at the first, and only read). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the transposed tile holds the point's tile (it is fetched at every point). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The argument ends as given -/

/-- From a run of the whole entry function whose post has every windowed array at what the write-backs
    computed: the argument x is an input window's array, never written back, so it ends as the launch found it,
    which is as it was given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's two conditions -/

/-- "This is the first point": under it the body stores sin x. -/
abbrev cond0_0 (i : grid0.Coords) : Prop := k0_cond1 i = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last point": under it the body stores the copy of x. -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the results are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- sin x is stored at the first point, -/
theorem liveAt0_2 : ∀ t : Fin cfg0.N, cond0_0 (grid0.coords t) → cfg0.idle 2 (grid0.coords t) = false := by decide +kernel
/-- and at no other. -/
theorem idleAt0_2 : ∀ t : Fin cfg0.N, ¬cond0_0 (grid0.coords t) → cfg0.idle 2 (grid0.coords t) = true := by decide +kernel
/-- The copy of x is stored at the last point, -/
theorem liveAt0_4 : ∀ t : Fin cfg0.N, cond0_1 (grid0.coords t) → cfg0.idle 4 (grid0.coords t) = false := by decide +kernel
/-- and at no other. -/
theorem idleAt0_4 : ∀ t : Fin cfg0.N, ¬cond0_1 (grid0.coords t) → cfg0.idle 4 (grid0.coords t) = true := by decide +kernel
/-- Both whole-array results are written back at the last point only. -/
theorem noFlush0_2 : ∀ t : Fin cfg0.N, ¬cond0_1 (grid0.coords t) → (cfg0.win 2).flush t = false := by decide +kernel
theorem noFlush0_4 : ∀ t : Fin cfg0.N, ¬cond0_1 (grid0.coords t) → (cfg0.win 4).flush t = false := by decide +kernel
theorem flushAt0_2 : ∀ t : Fin cfg0.N, cond0_1 (grid0.coords t) → (cfg0.win 2).flush t = true := by decide +kernel

/-! ## The staging buffers at a point -/

/-- One staging buffer of each result, through which its contents are stated. -/
abbrev VO0_2 : View sig .tc .vmem S256x512 .f32 := (Memref.whole cc0_stg2_0 : Memref sig .tc .vmem S256x512 .f32).view
abbrev VO0_3 : View sig .tc .vmem S256x8192 .f32 := (Memref.whole cc0_stg3_0 : Memref sig .tc .vmem S256x8192 .f32).view
abbrev VO0_4 : View sig .tc .vmem S256x512 .f32 := (Memref.whole cc0_stg4_0 : Memref sig .tc .vmem S256x512 .f32).view

abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x8192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .f32 := win0_4.stage (cfg0.slots t 4)
abbrev hs0_4 (t : Fin cfg0.N) : (ms0_4 t).IsWhole := hstage0_4 ((cfg0.slots t 4).cast nbuf0_4)

end Cert.KernelIdeal.Around

end
-- ==== Proof.KernelIdeal.RunA.lean ====
/-
  The body at the FIRST grid point: it stores sin x into the first result's buffer, the sixteen products
  x[:,16t+l] * x (l = 0..15) side by side into the second's, and leaves the third's alone.
-/
import proofs.«135478_j13821204759158_1_alg».proof.Proof.KernelIdeal.Around

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in this case, on any whole staging buffers: the stores' pieces (last first) are found by
    running the body and depend on the two input blocks only; a buffer the case does not store into comes back
    as it was, whatever it held. -/
noncomputable def kernelRun0_A (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) :
    Σ' (L2 : List (View.Piece (Elt F) S256x512 .f32)), { L3 : List (View.Piece (Elt F) S256x8192 .f32) //
      ∀ (y4 : Vec F S256x512 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare y4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ owns (c : Thread nD τ) arg5 fullShare y4) -∗ K ⟨⟩))
          ⊢ wp frame (wpE (defs₀ (F := F)) Variants.none c none) E (cc0__kernel i arg1 harg1 arg2 harg2 arg3 harg3 arg4 harg4 arg5 harg5) K } := by
  refine ⟨?_, ?_, fun y4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; isplitr; · ipureintro; exact harg5.read_unread _
    iexact H4

end Cert.KernelIdeal.Around

end
-- ==== Proof.KernelIdeal.RunB.lean ====
/-
  The body at a MIDDLE grid point (neither first nor last): it stores the sixteen products into the second
  result's buffer and leaves the first and third results' buffers alone.
-/
import proofs.«135478_j13821204759158_1_alg».proof.Proof.KernelIdeal.RunA

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in this case, on any whole staging buffers: the stores' pieces (last first) are found by
    running the body and depend on the two input blocks only; a buffer the case does not store into comes back
    as it was, whatever it held. -/
noncomputable def kernelRun0_B (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : ¬cond0_1 i)
    (x0 : Vec F S256x512 .f32) (x1 : Vec F S16x256 .f32) :
    { L3 : List (View.Piece (Elt F) S256x8192 .f32) //
      ∀ (y2 : Vec F S256x512 .f32) (y4 : Vec F S256x512 .f32) (E : Set ℕ) (K : PUnit → sProp 𝕄),
        iprop(owns (c : Thread nD τ) arg1 fullShare x0 ∗ owns (c : Thread nD τ) arg2 fullShare x1 ∗ owns (c : Thread nD τ) arg3 fullShare y2 ∗ (∃ d, owns (c : Thread nD τ) arg4 fullShare d) ∗ owns (c : Thread nD τ) arg5 fullShare y4
            ∗ (iprop(owns (c : Thread nD τ) arg1 fullShare x0 ∗ owns (c : Thread nD τ) arg2 fullShare x1 ∗ owns (c : Thread nD τ) arg3 fullShare y2 ∗ (∃ f, arg4.view.loc (c : Thread nD τ) ↦[arg4.view.set]{fullShare} arg4.view.writes (Elt F) f L3) ∗ owns (c : Thread nD τ) arg5 fullShare y4) -∗ K ⟨⟩))
          ⊢ wp frame (wpE (defs₀ (F := F)) Variants.none c none) E (cc0__kernel i arg1 harg1 arg2 harg2 arg3 harg3 arg4 harg4 arg5 harg5) K } := by
  refine ⟨?_, fun y2 y4 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact H4

end Cert.KernelIdeal.Around

end
-- ==== Proof.KernelIdeal.RunC.lean ====
/-
  The body at the LAST grid point: it stores the sixteen products into the second result's buffer and the
  copy of x into the third's, and leaves the first's alone.
-/
import proofs.«135478_j13821204759158_1_alg».proof.Proof.KernelIdeal.RunB

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in this case, on any whole staging buffers: the stores' pieces (last first) are found by
    running the body and depend on the two input blocks only; a buffer the case does not store into comes back
    as it was, whatever it held. -/
noncomputable def kernelRun0_C (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) :
    Σ' (L3 : List (View.Piece (Elt F) S256x8192 .f32)), { L4 : List (View.Piece (Elt F) S256x512 .f32) //
      ∀ (y2 : Vec F S256x512 .f32) (E : Set ℕ) (K : PUnit → sProp 𝕄),
        iprop(owns (c : Thread nD τ) arg1 fullShare x0 ∗ owns (c : Thread nD τ) arg2 fullShare x1 ∗ owns (c : Thread nD τ) arg3 fullShare y2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare y2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc0__kernel i arg1 harg1 arg2 harg2 arg3 harg3 arg4 harg4 arg5 harg5) K } := by
  refine ⟨?_, ?_, fun y2 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

end Cert.KernelIdeal.Around

end
-- ==== Proof.KernelIdeal.Whole.lean ====
/-
  The proof data of the launch and the run of the whole entry function.
  After the body at a point the staging buffers hold: x and the point's tile of the transpose (inputs, only
  read); sin x in the first result's buffer from the first point on (stored there, untouched afterwards, written
  back at the last point); the point's sixteen products in the second result's buffer (stored and written back at
  every point); the copy of x in the third's at the last point (stored and written back there). Between the first
  and the last point the first result's single staging buffer is idle, so what the last point finds in it is
  what the first point stored: an induction over the points. The body's triple at a point is the run of its
  case; the launch theorem then gives every windowed array at what the write-backs computed, the concatenation
  applied after it, and the argument unchanged.
-/
import proofs.«135478_j13821204759158_1_alg».proof.Proof.KernelIdeal.RunC

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the results' buffers -/

/-- The pieces case A stores into result window 2's buffer tile it, so they cover it. -/
theorem cover0_A_2 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) (y : S256x512.Idx) :
    ∃ pc ∈ (kernelRun0_A c i arg1 harg1 arg2 harg2 arg3 harg3 arg4 harg4 arg5 harg5 hc0 hc1 x0 x1).1, y ∈ pc.1.set :=
  View.cover_of_tiledL (kernelRun0_A c i arg1 harg1 arg2 harg2 arg3 harg3 arg4 harg4 arg5 harg5 hc0 hc1 x0 x1).1 S256x512.size (by sl_kernel_rfl) y

/-- What case A leaves in result window 2's buffer: its pieces read back (over anything: they cover it). -/
def out0_A_2 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) : Vec F S256x512 .f32 :=
  VO0_2.read (Elt F) (VO0_2.writes (Elt F) VO0_2.junk (kernelRun0_A c i arg1 harg1 arg2 harg2 arg3 harg3 arg4 harg4 arg5 harg5 hc0 hc1 x0 x1).1)

/-- The pieces case A stores into result window 3's buffer tile it, so they cover it. -/
theorem cover0_A_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) (y : S256x8192.Idx) :
    ∃ pc ∈ (kernelRun0_A c i arg1 harg1 arg2 harg2 arg3 harg3 arg4 harg4 arg5 harg5 hc0 hc1 x0 x1).2.1, y ∈ pc.1.set :=
  View.cover_of_tiledL (kernelRun0_A c i arg1 harg1 arg2 harg2 arg3 harg3 arg4 harg4 arg5 harg5 hc0 hc1 x0 x1).2.1 S256x512.size (by sl_kernel_rfl) y

/-- What case A leaves in result window 3's buffer: its pieces read back (over anything: they cover it). -/
def out0_A_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) : Vec F S256x8192 .f32 :=
  VO0_3.read (Elt F) (VO0_3.writes (Elt F) VO0_3.junk (kernelRun0_A c i arg1 harg1 arg2 harg2 arg3 harg3 arg4 harg4 arg5 harg5 hc0 hc1 x0 x1).2.1)

/-- The pieces case B stores into result window 3's buffer tile it, so they cover it. -/
theorem cover0_B_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : ¬cond0_1 i)
    (x0 : Vec F S256x512 .f32) (x1 : Vec F S16x256 .f32) (y : S256x8192.Idx) :
    ∃ pc ∈ (kernelRun0_B c i arg1 harg1 arg2 harg2 arg3 harg3 arg4 harg4 arg5 harg5 hc0 hc1 x0 x1).1, y ∈ pc.1.set :=
  View.cover_of_tiledL (kernelRun0_B c i arg1 harg1 arg2 harg2 arg3 harg3 arg4 harg4 arg5 harg5 hc0 hc1 x0 x1).1 S256x512.size (by sl_kernel_rfl) y

/-- What case B leaves in result window 3's buffer: its pieces read back (over anything: they cover it). -/
def out0_B_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : ¬cond0_1 i)
    (x0 : Vec F S256x512 .f32) (x1 : Vec F S16x256 .f32) : Vec F S256x8192 .f32 :=
  VO0_3.read (Elt F) (VO0_3.writes (Elt F) VO0_3.junk (kernelRun0_B c i arg1 harg1 arg2 harg2 arg3 harg3 arg4 harg4 arg5 harg5 hc0 hc1 x0 x1).1)

/-- The pieces case C stores into result window 3's buffer tile it, so they cover it. -/
theorem cover0_C_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) (y : S256x8192.Idx) :
    ∃ pc ∈ (kernelRun0_C c i arg1 harg1 arg2 harg2 arg3 harg3 arg4 harg4 arg5 harg5 hc0 hc1 x0 x1).1, y ∈ pc.1.set :=
  View.cover_of_tiledL (kernelRun0_C c i arg1 harg1 arg2 harg2 arg3 harg3 arg4 harg4 arg5 harg5 hc0 hc1 x0 x1).1 S256x512.size (by sl_kernel_rfl) y

/-- What case C leaves in result window 3's buffer: its pieces read back (over anything: they cover it). -/
def out0_C_3 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) : Vec F S256x8192 .f32 :=
  VO0_3.read (Elt F) (VO0_3.writes (Elt F) VO0_3.junk (kernelRun0_C c i arg1 harg1 arg2 harg2 arg3 harg3 arg4 harg4 arg5 harg5 hc0 hc1 x0 x1).1)

/-- The pieces case C stores into result window 4's buffer tile it, so they cover it. -/
theorem cover0_C_4 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) (y : S256x512.Idx) :
    ∃ pc ∈ (kernelRun0_C c i arg1 harg1 arg2 harg2 arg3 harg3 arg4 harg4 arg5 harg5 hc0 hc1 x0 x1).2.1, y ∈ pc.1.set :=
  View.cover_of_tiledL (kernelRun0_C c i arg1 harg1 arg2 harg2 arg3 harg3 arg4 harg4 arg5 harg5 hc0 hc1 x0 x1).2.1 S256x512.size (by sl_kernel_rfl) y

/-- What case C leaves in result window 4's buffer: its pieces read back (over anything: they cover it). -/
def out0_C_4 (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) : Vec F S256x512 .f32 :=
  VO0_4.read (Elt F) (VO0_4.writes (Elt F) VO0_4.junk (kernelRun0_C c i arg1 harg1 arg2 harg2 arg3 harg3 arg4 harg4 arg5 harg5 hc0 hc1 x0 x1).2.1)

/-! ## The first and the last point -/

theorem N_pos : 0 < cfg0.N := by rw [show cfg0.N = 32 from N_0]; decide
theorem N_last : 31 < cfg0.N := by rw [show cfg0.N = 32 from N_0]; decide
abbrev tFirst : Fin cfg0.N := ⟨0, N_pos⟩
abbrev tLast : Fin cfg0.N := ⟨31, N_last⟩

theorem first_c0 : cond0_0 (grid0.coords tFirst) := (hcond0_0 tFirst).mpr rfl
theorem first_c1 : ¬cond0_1 (grid0.coords tFirst) := fun h => absurd ((hcond0_1 tFirst).mp h) (by decide)
theorem last_c0 : ¬cond0_0 (grid0.coords tLast) := fun h => absurd ((hcond0_0 tLast).mp h) (by decide)
theorem last_c1 : cond0_1 (grid0.coords tLast) := (hcond0_1 tLast).mpr rfl

/-! ## What the results' buffers hold after each point -/

/-- sin x, as the first point stores it. -/
def sinOut (c : Dev nD) : Vec F S256x512 .f32 :=
  out0_A_2 c (grid0.coords tFirst) (ms0_0 tFirst) (hs0_0 tFirst) (ms0_1 tFirst) (hs0_1 tFirst) (ms0_2 tFirst) (hs0_2 tFirst) (ms0_3 tFirst) (hs0_3 tFirst) (ms0_4 tFirst) (hs0_4 tFirst) first_c0 first_c1 (iblk m c 0 tFirst) (iblk m c 1 tFirst)

/-- The copy of x, as the last point stores it. -/
def identOut (c : Dev nD) : Vec F S256x512 .f32 :=
  out0_C_4 c (grid0.coords tLast) (ms0_0 tLast) (hs0_0 tLast) (ms0_1 tLast) (hs0_1 tLast) (ms0_2 tLast) (hs0_2 tLast) (ms0_3 tLast) (hs0_3 tLast) (ms0_4 tLast) (hs0_4 tLast) last_c0 last_c1 (iblk m c 0 tLast) (iblk m c 1 tLast)

/-- The sixteen products of point `t`, as its case stores them. -/
def pairOut (c : Dev nD) (t : Fin cfg0.N) : Vec F S256x8192 .f32 :=
  if h0 : t.val % 32 = 0 then
    out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => by have h1 := (hcond0_1 t).mp h; omega) (iblk m c 0 t) (iblk m c 1 t)
  else if h1 : t.val % 32 = 31 then
    out0_C_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t)
  else
    out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk m c 0 t) (iblk m c 1 t)

theorem pairOut_A (c : Dev nD) (t : Fin cfg0.N) (h0 : t.val % 32 = 0) (h1 : ¬t.val % 32 = 31) :
    pairOut m c t = out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) := by
  unfold pairOut; rw [dif_pos h0]
theorem pairOut_B (c : Dev nD) (t : Fin cfg0.N) (h0 : ¬t.val % 32 = 0) (h1 : ¬t.val % 32 = 31) :
    pairOut m c t = out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk m c 0 t) (iblk m c 1 t) := by
  unfold pairOut; rw [dif_neg h0, dif_neg h1]
theorem pairOut_C (c : Dev nD) (t : Fin cfg0.N) (h0 : ¬t.val % 32 = 0) (h1 : t.val % 32 = 31) :
    pairOut m c t = out0_C_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) := by
  unfold pairOut; rw [dif_neg h0, dif_pos h1]

/-! ## The launch's proof data -/

/-- On core `c`: the arrays as the launch finds them; after the body at point `t` the inputs' buffers at their
    blocks, the results' at `sinOut`, `pairOut t`, `identOut`; nothing of the kernel's own to keep. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => sinOut m c
    | ⟨3, _⟩ => pairOut m c t
    | ⟨4, _⟩ => identOut m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = sinOut m c := by dsimp only [dats]
theorem after0_3 (c : Dev nD) (t : Fin cfg0.N) : (dats m 0 c).after 3 t = pairOut m c t := by dsimp only [dats]
theorem after0_4 (c : Dev nD) (t : Fin cfg0.N) : (dats m 0 c).after 4 t = identOut m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- After the first point the first result's staging buffer holds sin x: the buffer is single, written back
    only at the last point, and idle at every point but the first, so each point finds what the one before
    found, back to what the first point stored. -/
theorem before0_2 (c : Dev nD) (t : Fin cfg0.N) (ht : t.val ≠ 0) (d) : (dats m 0 c).before 2 t d = sinOut m c := by
  obtain ⟨n, hn⟩ := t
  induction n with
  | zero => exact absurd rfl ht
  | succ k ih =>
    have hN : k + 1 < 32 := lt_of_lt_of_eq hn (show cfg0.N = 32 from N_0)
    have hk : k < cfg0.N := Nat.lt_of_succ_lt hn
    rw [(dats m 0 c).before_of_pos 2 ⟨k + 1, hn⟩ ht ((cfg0.win 2).fetch_out rfl _) d]
    have hfl : (cfg0.win 2).flush (⟨k + 1 - 1, Nat.lt_of_le_of_lt (Nat.sub_le _ _) hn⟩ : Fin cfg0.N) = false :=
      noFlush0_2 _ (fun h => by have h' := (hcond0_1 _).mp h; dsimp only at h'; omega)
    rw [hfl, if_neg Bool.false_ne_true]
    unfold Dat.left
    by_cases hk0 : k = 0
    · subst hk0
      rw [liveAt0_2 _ ((hcond0_0 _).mpr (show (0 + 1 - 1) % 32 = 0 from rfl))]
      unfold Dat.kept
      rw [Pipeline.fill_of_clip_none (cfg := cfg0) 2 _ (fun _ => rfl) d ((dats m 0 c).after 2 _), Window.fill_cut]
      dsimp only [dats]
    · rw [idleAt0_2 _ (fun h => by have h' := (hcond0_0 _).mp h; dsimp only at h'; omega)]
      exact ih hk hk0

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the point is the first, a middle one or the
    last, and its case's run applies; a result the case does not store into is handed back as found — at the
    last point the first result's buffer, found at sin x, is what is written back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 3 t = owns (c : Thread nD τ) (ms0_3 t) fullShare ((dats m 0 c).after 3 t) from by
    unfold Dat.leavesExact; rw [liveAt0_3 t], after0_3]
  by_cases h0 : t.val % 32 = 0
  · have h1 : ¬t.val % 32 = 31 := by omega
    have hc0 : cond0_0 (grid0.coords t) := (hcond0_0 t).mpr h0
    have hc1 : ¬cond0_1 (grid0.coords t) := fun h => h1 ((hcond0_1 t).mp h)
    rw [show (dats m 0 c).leavesExact 2 t = owns (c : Thread nD τ) (ms0_2 t) fullShare ((dats m 0 c).after 2 t) from by
      unfold Dat.leavesExact; rw [liveAt0_2 t hc0], after0_2]
    rw [Dat.leavesExact_idle (dats m 0 c) 4 t (idleAt0_4 t hc1) (noFlush0_4 t hc1)]
    rw [pairOut_A m c t h0 h1]
    obtain rfl : t = tFirst := Fin.ext (show t.val = 0 by omega)
    unfold sinOut out0_A_2 out0_A_3; (try dsimp only)
    iintro ⟨HΦ, Ho, ⟨%d0, H0⟩, ⟨%d1, H1⟩, ⟨%d2, H2⟩, ⟨%d3, H3⟩, ⟨%d4, H4⟩⟩
    iapply ((kernelRun0_A c (grid0.coords tFirst) _ _ _ _ _ _ _ _ _ _ hc0 hc1 (iblk m c 0 tFirst) (iblk m c 1 tFirst)).2.2 _ Set.univ _)
    isplitl [H0]; · iexact H0
    isplitl [H1]; · iexact H1
    isplitl [H2]; · iexists _; iexact H2
    isplitl [H3]; · iexists _; iexact H3
    isplitl [H4]; · iexact H4
    iintro ⟨H0, H1, ⟨%e2, H2⟩, ⟨%e3, H3⟩, H4⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _ _ _ _)
    isplitl [H3]
    · unfold owns; iexists _; isplitr
      swap; · iexact H3
      ipureintro; exact View.read_writes_of_cover _ _ _ _ _ (cover0_A_3 c _ _ _ _ _ _ _ _ _ _ _ _ _ _ _)
    iexists _; iexact H4
  · have hc0 : ¬cond0_0 (grid0.coords t) := fun h => h0 ((hcond0_0 t).mp h)
    have ht : t.val ≠ 0 := fun h => h0 (by rw [h])
    by_cases h1 : t.val % 32 = 31
    · have hc1 : cond0_1 (grid0.coords t) := (hcond0_1 t).mpr h1
      rw [show (dats m 0 c).leavesExact 2 t = owns (c : Thread nD τ) (ms0_2 t) fullShare ((dats m 0 c).after 2 t) from by
        unfold Dat.leavesExact; rw [idleAt0_2 t hc0, flushAt0_2 t hc1], after0_2]
      rw [show (dats m 0 c).leavesExact 4 t = owns (c : Thread nD τ) (ms0_4 t) fullShare ((dats m 0 c).after 4 t) from by
        unfold Dat.leavesExact; rw [liveAt0_4 t hc1], after0_4]
      simp only [before0_2 m c t ht]
      rw [pairOut_C m c t h0 h1]
      obtain rfl : t = tLast := Fin.ext (show t.val = 31 by omega)
      unfold identOut out0_C_3 out0_C_4; (try dsimp only)
      iintro ⟨HΦ, Ho, ⟨%d0, H0⟩, ⟨%d1, H1⟩, ⟨%d2, H2⟩, ⟨%d3, H3⟩, ⟨%d4, H4⟩⟩
      iapply ((kernelRun0_C c (grid0.coords tLast) _ _ _ _ _ _ _ _ _ _ hc0 hc1 (iblk m c 0 tLast) (iblk m c 1 tLast)).2.2 _ Set.univ _)
      isplitl [H0]; · iexact H0
      isplitl [H1]; · iexact H1
      isplitl [H2]; · iexact H2
      isplitl [H3]; · iexists _; iexact H3
      isplitl [H4]; · iexists _; iexact H4
      iintro ⟨H0, H1, H2, ⟨%e3, H3⟩, ⟨%e4, H4⟩⟩
      isplitl [HΦ]; · iexact HΦ
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_C_3 c _ _ _ _ _ _ _ _ _ _ _ _ _ _ _)
      unfold owns; iexists _; isplitr
      swap; · iexact H4
      ipureintro; exact View.read_writes_of_cover _ _ _ _ _ (cover0_C_4 c _ _ _ _ _ _ _ _ _ _ _ _ _ _ _)
    · have hc1 : ¬cond0_1 (grid0.coords t) := fun h => h1 ((hcond0_1 t).mp h)
      rw [Dat.leavesExact_idle (dats m 0 c) 2 t (idleAt0_2 t hc0) (noFlush0_2 t hc1)]
      rw [Dat.leavesExact_idle (dats m 0 c) 4 t (idleAt0_4 t hc1) (noFlush0_4 t hc1)]
      rw [pairOut_B m c t h0 h1]
      unfold out0_B_3; (try dsimp only)
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ hc0 hc1 (iblk m c 0 t) (iblk m c 1 t)).2 _ _ Set.univ _)
      isplitl [H0]; · iexact H0
      isplitl [H1]; · iexact H1
      isplitl [H2]; · iexact H2
      isplitl [H3]; · iexists _; iexact H3
      isplitl [H4]; · iexact H4
      iintro ⟨H0, H1, H2, ⟨%e3, H3⟩, H4⟩
      isplitl [HΦ]; · iexact HΦ
      isplitl [Ho]; · iexact Ho
      isplitl [H0]; · iexact H0
      isplitl [H1]; · iexact H1
      isplitl [H2]; · iexists _; iexact H2
      isplitl [H3]
      · unfold owns; iexists _; isplitr
        swap; · iexact H3
        ipureintro; exact View.read_writes_of_cover _ _ _ _ _ (cover0_B_3 c _ _ _ _ _ _ _ _ _ _ _ _ _ _ _)
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the entry function terminates, each
    windowed array ending at what the write-backs computed from the proof data and the result buffer at the
    concatenation of the three result arrays. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the entry function runs to the end, faults nowhere, and leaves its argument as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Around

end
-- ==== Proof.KernelIdeal.Contents.lean ====
/-
  What the body's stores leave in the results' staging buffers, as functions of the two input blocks x0 (the
  256 x 512 block of x) and x1 (the point's 16 x 256 tile of the transpose).
  The first point's one store into the first result is sin x0, entry by entry; the last point's one store into
  the third is x0. Each point's sixteen stores into the second result tile its 256 x 8192 buffer by sixteen
  256 x 512 column panels, and panel l holds (row b, column j) the product x1[l, b] * x0[b, j]: the column l of
  the transposed tile, broadcast along the row, times x0. So the buffer at (b, q) is
  x1[q / 512, b] * x0[b, q mod 512].
-/
import proofs.«135478_j13821204759158_1_alg».proof.Proof.KernelIdeal.Whole
import Idealize.ShloMosaic.Lib.Pipeline.Value
import Idealize.ShloMosaic.Lib.ValueIdx
import Idealize.ShloMosaic.PureOps.Ideal

set_option maxRecDepth 16384

noncomputable section

namespace Cert.KernelIdeal.Contents

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Around
open Idealize.ShloMosaic.ValueIdx

theorem hz : (![0, 0] : Fin 2 → Nat) = fun _ => 0 := funext fun a => by fin_cases a <;> rfl

section AnyInstance
variable {F : FTy → Type} [FloatOps F]

/-- The first point stores sin of the block of x into the first result's buffer. -/
theorem stored_sin (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec F S256x512 .f32) (x1 : Vec F S16x256 .f32) :
    out0_A_2 c i arg1 harg1 arg2 harg2 arg3 harg3 arg4 harg4 arg5 harg5 hc0 hc1 x0 x1 = sin x0 := by
  unfold out0_A_2
  rw [View.read_writes_junk_eq_canon]
  unfold kernelRun0_A
  dsimp only
  try sl_unfold_words
  rw [View.canon_unit_zero hz]
  unfold k0_pay2
  simp only [View.readAt_eq_ld, harg1.read_unread, View.ld_unit_zero (S := S256x512) hz]

/-- The last point stores the block of x into the third result's buffer. -/
theorem stored_copy (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec F S256x512 .f32) (x1 : Vec F S16x256 .f32) :
    out0_C_4 c i arg1 harg1 arg2 harg2 arg3 harg3 arg4 harg4 arg5 harg5 hc0 hc1 x0 x1 = x0 := by
  unfold out0_C_4
  rw [View.read_writes_junk_eq_canon]
  unfold kernelRun0_C
  dsimp only
  try sl_unfold_words
  rw [View.canon_unit_zero hz]
  simp only [View.readAt_eq_ld, harg1.read_unread, View.ld_unit_zero (S := S256x512) hz]

end AnyInstance

/-! ## The products -/

/-- Entry (b, q) of the products' buffer takes row q / 512 of the transposed tile, at column b, -/
abbrev tileIdx (y : S256x8192.Idx) : S16x256.Idx := fun a => match a with
  | ⟨0, _⟩ => ⟨(y 1).val / 512, by have h1 : (y 1).val < 8192 := (y 1).isLt; show (y 1).val / 512 < 16; omega⟩
  | ⟨1, _⟩ => ⟨(y 0).val, (y 0).isLt⟩
/-- and entry (b, q mod 512) of x. -/
abbrev colIdx (y : S256x8192.Idx) : S256x512.Idx := fun a => match a with
  | ⟨0, _⟩ => ⟨(y 0).val, (y 0).isLt⟩
  | ⟨1, _⟩ => ⟨(y 1).val % 512, by show (y 1).val % 512 < 512; omega⟩

/-- The products' buffer of a point, from its two input blocks. -/
def pairBlk (x0 : FVec Ideal S256x512 .f32) (x1 : FVec Ideal S16x256 .f32) : FVec Ideal S256x8192 .f32 :=
  fun y => x1 (tileIdx y) * x0 (colIdx y)

/-- Row b of the 256 x 1 column, -/
abbrev colOf (x : S256x512.Idx) : S256x1.Idx := fun a => match a with
  | ⟨0, _⟩ => ⟨(x 0).val, (x 0).isLt⟩
  | ⟨1, _⟩ => ⟨0, Nat.one_pos⟩
/-- entry (b, k) of the transposed tile's transpose, -/
abbrev laneOf (k : ℕ) (hk : k < 16) (x : S256x512.Idx) : S256x16.Idx := fun a => match a with
  | ⟨0, _⟩ => ⟨(x 0).val, (x 0).isLt⟩
  | ⟨1, _⟩ => ⟨k, hk⟩
/-- entry (k, b) of the transposed tile. -/
abbrev tileOf (k : ℕ) (hk : k < 16) (x : S256x512.Idx) : S16x256.Idx := fun a => match a with
  | ⟨0, _⟩ => ⟨k, hk⟩
  | ⟨1, _⟩ => ⟨(x 0).val, (x 0).isLt⟩

/-- Panel `k` (columns 512 k … 512 k + 511): column `k` of the transposed tile, as a 256 x 1 column broadcast
    along the row, times x0 — at the panel's entry `x` it is the buffer's function at the embedded index. -/
theorem piece_apply (k o : ℕ) (hk : k < 16) (ho : o = 512 * k)
    (inb : ∀ a, (![0, o] : Fin 2 → Nat) a + S256x512.size a ≤ S256x8192.size a)
    (hsc : S16x256.ShapeCasts S16x256) (htr : S16x256.Transposes [1, 0] S256x16)
    (hs : S256x16.Slices ![0, k] S256x1) (hb : S256x1.Broadcasts S256x512)
    (x0 : FVec Ideal S256x512 .f32) (x1 : FVec Ideal S16x256 .f32) (x : S256x512.Idx) :
    mulf (broadcastTo S256x512 (extractStridedSlice S256x1 ![0, k] (transpose S256x16 [1, 0] (shapeCast S16x256 x1 hsc) htr) hs) hb) x0 x
      = pairBlk x0 x1 ((Rect.unit (s := S256x8192) ![0, o] S256x512.size inb).emb x) := by
  subst ho
  have h0 : (x 0).val < 256 := (x 0).isLt
  have h1 : (x 1).val < 512 := (x 1).isLt
  rw [mulf_apply]
  unfold pairBlk
  congr 1
  · refine (broadcastTo_apply _ hb x (colOf x) (fun a => match a with
        | ⟨0, _⟩ => by show (x 0).val = if (256 : Nat) = 1 then 0 else (x 0).val; rw [if_neg (by decide)]
        | ⟨1, _⟩ => by show 0 = if (1 : Nat) = 1 then 0 else (x 1).val; rw [if_pos rfl])).trans ?_
    refine (extractStridedSlice_apply ![0, k] _ hs (colOf x) (laneOf k hk x) (fun a => match a with
        | ⟨0, _⟩ => by show (x 0).val = 0 + (x 0).val; omega
        | ⟨1, _⟩ => by show k = k + 0; omega)).trans ?_
    refine (transpose_apply [1, 0] _ htr (laneOf k hk x) (tileOf k hk x) (fun b => match b with
        | ⟨0, _⟩ => rfl
        | ⟨1, _⟩ => rfl)).trans ?_
    rw [shapeCast_self]
    refine congrArg x1 (funext fun a => Fin.ext ?_)
    match a with
    | ⟨0, _⟩ => show k = (512 * k + 1 * (x 1).val) / 512; omega
    | ⟨1, _⟩ => show (x 0).val = 0 + 1 * (x 0).val; omega
  · refine congrArg x0 (funext fun a => Fin.ext ?_)
    match a with
    | ⟨0, _⟩ => show (x 0).val = 0 + 1 * (x 0).val; omega
    | ⟨1, _⟩ => show (x 1).val = (512 * k + 1 * (x 1).val) % 512; omega

/-- What the first point's case stores into the second result's buffer, at an index. -/
theorem stored_pair_A (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : cond0_0 i) (hc1 : ¬cond0_1 i)
    (x0 : Vec Ideal S256x512 .f32) (x1 : Vec Ideal S16x256 .f32) (y : S256x8192.Idx) :
    out0_A_3 (F := Ideal) c i arg1 harg1 arg2 harg2 arg3 harg3 arg4 harg4 arg5 harg5 hc0 hc1 x0 x1 y = pairBlk x0 x1 y := by
  unfold out0_A_3
  rw [View.read_writes_junk_eq_canon]
  refine View.canon_apply_of_pieces (pairBlk x0 x1) _ ?_ y (cover0_A_3 c i arg1 harg1 arg2 harg2 arg3 harg3 arg4 harg4 arg5 harg5 hc0 hc1 x0 x1 y)
  unfold kernelRun0_A
  dsimp only
  try sl_unfold_words
  simp only [View.readAt_eq_ld, harg1.read_unread, harg2.read_unread, View.ld_unit_zero (S := S256x512) hz, View.ld_unit_zero (S := S16x256) hz]
  intro p hp x
  simp only [List.mem_cons, List.not_mem_nil, or_false] at hp
  rcases hp with rfl | rfl | rfl | rfl | rfl | rfl | rfl | rfl | rfl | rfl | rfl | rfl | rfl | rfl | rfl | rfl
  all_goals dsimp only
  · exact piece_apply 15 7680 (by decide) rfl _ _ _ _ _ x0 x1 x
  · exact piece_apply 14 7168 (by decide) rfl _ _ _ _ _ x0 x1 x
  · exact piece_apply 13 6656 (by decide) rfl _ _ _ _ _ x0 x1 x
  · exact piece_apply 12 6144 (by decide) rfl _ _ _ _ _ x0 x1 x
  · exact piece_apply 11 5632 (by decide) rfl _ _ _ _ _ x0 x1 x
  · exact piece_apply 10 5120 (by decide) rfl _ _ _ _ _ x0 x1 x
  · exact piece_apply 9 4608 (by decide) rfl _ _ _ _ _ x0 x1 x
  · exact piece_apply 8 4096 (by decide) rfl _ _ _ _ _ x0 x1 x
  · exact piece_apply 7 3584 (by decide) rfl _ _ _ _ _ x0 x1 x
  · exact piece_apply 6 3072 (by decide) rfl _ _ _ _ _ x0 x1 x
  · exact piece_apply 5 2560 (by decide) rfl _ _ _ _ _ x0 x1 x
  · exact piece_apply 4 2048 (by decide) rfl _ _ _ _ _ x0 x1 x
  · exact piece_apply 3 1536 (by decide) rfl _ _ _ _ _ x0 x1 x
  · exact piece_apply 2 1024 (by decide) rfl _ _ _ _ _ x0 x1 x
  · exact piece_apply 1 512 (by decide) rfl _ _ _ _ _ x0 x1 x
  · exact piece_apply 0 0 (by decide) rfl _ _ _ _ _ x0 x1 x

/-- What the middle point's case stores into the second result's buffer, at an index. -/
theorem stored_pair_B (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : ¬cond0_1 i)
    (x0 : Vec Ideal S256x512 .f32) (x1 : Vec Ideal S16x256 .f32) (y : S256x8192.Idx) :
    out0_B_3 (F := Ideal) c i arg1 harg1 arg2 harg2 arg3 harg3 arg4 harg4 arg5 harg5 hc0 hc1 x0 x1 y = pairBlk x0 x1 y := by
  unfold out0_B_3
  rw [View.read_writes_junk_eq_canon]
  refine View.canon_apply_of_pieces (pairBlk x0 x1) _ ?_ y (cover0_B_3 c i arg1 harg1 arg2 harg2 arg3 harg3 arg4 harg4 arg5 harg5 hc0 hc1 x0 x1 y)
  unfold kernelRun0_B
  dsimp only
  try sl_unfold_words
  simp only [View.readAt_eq_ld, harg1.read_unread, harg2.read_unread, View.ld_unit_zero (S := S256x512) hz, View.ld_unit_zero (S := S16x256) hz]
  intro p hp x
  simp only [List.mem_cons, List.not_mem_nil, or_false] at hp
  rcases hp with rfl | rfl | rfl | rfl | rfl | rfl | rfl | rfl | rfl | rfl | rfl | rfl | rfl | rfl | rfl | rfl
  all_goals dsimp only
  · exact piece_apply 15 7680 (by decide) rfl _ _ _ _ _ x0 x1 x
  · exact piece_apply 14 7168 (by decide) rfl _ _ _ _ _ x0 x1 x
  · exact piece_apply 13 6656 (by decide) rfl _ _ _ _ _ x0 x1 x
  · exact piece_apply 12 6144 (by decide) rfl _ _ _ _ _ x0 x1 x
  · exact piece_apply 11 5632 (by decide) rfl _ _ _ _ _ x0 x1 x
  · exact piece_apply 10 5120 (by decide) rfl _ _ _ _ _ x0 x1 x
  · exact piece_apply 9 4608 (by decide) rfl _ _ _ _ _ x0 x1 x
  · exact piece_apply 8 4096 (by decide) rfl _ _ _ _ _ x0 x1 x
  · exact piece_apply 7 3584 (by decide) rfl _ _ _ _ _ x0 x1 x
  · exact piece_apply 6 3072 (by decide) rfl _ _ _ _ _ x0 x1 x
  · exact piece_apply 5 2560 (by decide) rfl _ _ _ _ _ x0 x1 x
  · exact piece_apply 4 2048 (by decide) rfl _ _ _ _ _ x0 x1 x
  · exact piece_apply 3 1536 (by decide) rfl _ _ _ _ _ x0 x1 x
  · exact piece_apply 2 1024 (by decide) rfl _ _ _ _ _ x0 x1 x
  · exact piece_apply 1 512 (by decide) rfl _ _ _ _ _ x0 x1 x
  · exact piece_apply 0 0 (by decide) rfl _ _ _ _ _ x0 x1 x

/-- What the last point's case stores into the second result's buffer, at an index. -/
theorem stored_pair_C (c : Dev nD) (i : grid0.Coords) (arg1 : Memref sig .tc .vmem S256x512 .f32) (harg1 : arg1.IsWhole) (arg2 : Memref sig .tc .vmem S16x256 .f32) (harg2 : arg2.IsWhole) (arg3 : Memref sig .tc .vmem S256x512 .f32) (harg3 : arg3.IsWhole) (arg4 : Memref sig .tc .vmem S256x8192 .f32) (harg4 : arg4.IsWhole) (arg5 : Memref sig .tc .vmem S256x512 .f32) (harg5 : arg5.IsWhole) (hc0 : ¬cond0_0 i) (hc1 : cond0_1 i)
    (x0 : Vec Ideal S256x512 .f32) (x1 : Vec Ideal S16x256 .f32) (y : S256x8192.Idx) :
    out0_C_3 (F := Ideal) c i arg1 harg1 arg2 harg2 arg3 harg3 arg4 harg4 arg5 harg5 hc0 hc1 x0 x1 y = pairBlk x0 x1 y := by
  unfold out0_C_3
  rw [View.read_writes_junk_eq_canon]
  refine View.canon_apply_of_pieces (pairBlk x0 x1) _ ?_ y (cover0_C_3 c i arg1 harg1 arg2 harg2 arg3 harg3 arg4 harg4 arg5 harg5 hc0 hc1 x0 x1 y)
  unfold kernelRun0_C
  dsimp only
  try sl_unfold_words
  simp only [View.readAt_eq_ld, harg1.read_unread, harg2.read_unread, View.ld_unit_zero (S := S256x512) hz, View.ld_unit_zero (S := S16x256) hz]
  intro p hp x
  simp only [List.mem_cons, List.not_mem_nil, or_false] at hp
  rcases hp with rfl | rfl | rfl | rfl | rfl | rfl | rfl | rfl | rfl | rfl | rfl | rfl | rfl | rfl | rfl | rfl
  all_goals dsimp only
  · exact piece_apply 15 7680 (by decide) rfl _ _ _ _ _ x0 x1 x
  · exact piece_apply 14 7168 (by decide) rfl _ _ _ _ _ x0 x1 x
  · exact piece_apply 13 6656 (by decide) rfl _ _ _ _ _ x0 x1 x
  · exact piece_apply 12 6144 (by decide) rfl _ _ _ _ _ x0 x1 x
  · exact piece_apply 11 5632 (by decide) rfl _ _ _ _ _ x0 x1 x
  · exact piece_apply 10 5120 (by decide) rfl _ _ _ _ _ x0 x1 x
  · exact piece_apply 9 4608 (by decide) rfl _ _ _ _ _ x0 x1 x
  · exact piece_apply 8 4096 (by decide) rfl _ _ _ _ _ x0 x1 x
  · exact piece_apply 7 3584 (by decide) rfl _ _ _ _ _ x0 x1 x
  · exact piece_apply 6 3072 (by decide) rfl _ _ _ _ _ x0 x1 x
  · exact piece_apply 5 2560 (by decide) rfl _ _ _ _ _ x0 x1 x
  · exact piece_apply 4 2048 (by decide) rfl _ _ _ _ _ x0 x1 x
  · exact piece_apply 3 1536 (by decide) rfl _ _ _ _ _ x0 x1 x
  · exact piece_apply 2 1024 (by decide) rfl _ _ _ _ _ x0 x1 x
  · exact piece_apply 1 512 (by decide) rfl _ _ _ _ _ x0 x1 x
  · exact piece_apply 0 0 (by decide) rfl _ _ _ _ _ x0 x1 x

end Cert.KernelIdeal.Contents

end
-- ==== Proof.KernelIdeal.Arrays.lean ====
/-
  The result arrays after the launch, and the entry function's result.
  With x the argument (256 x 512): the first result array ends holding sin x (its one block, the whole array,
  is written back at the last point from a buffer that has held sin x since the first); the third ends holding x;
  the second (256 x 262144) is written back one 256 x 8192 column block per point, block t holding at (b, q)
  the product xT[16 t + q / 512, b] * x[b, q mod 512] with xT the host's transpose of x — that is, the array
  holds at (b, n) the product x[b, n / 512] * x[b, n mod 512], and the 32 blocks cover it. The entry function's
  result is the concatenation of the three along the columns.
-/
import proofs.«135478_j13821204759158_1_alg».proof.Proof.KernelIdeal.Contents
import Idealize.ShloMosaic.Lib.StableHlo.Run

set_option maxRecDepth 16384

noncomputable section

namespace Cert.KernelIdeal.Contents

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.KernelIdeal.Around
open Idealize.ShloMosaic.ValueIdx

variable (m : (ℓ : Loc nD τ sig) → Buf (Elt Ideal) ℓ) (ρ : Dev nD → PrngReg)

/-! ## The windows' block indices, over the grid -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = t.val :=
  (by decide +kernel : ∀ t : Fin grid0.N, win0_3.index t 0 = 0 ∧ win0_3.index t 1 = t.val)
theorem idx4 : ∀ t : Fin cfg0.N, win0_4.index t 0 = 0 ∧ win0_4.index t 1 = 0 :=
  (by decide +kernel : ∀ t : Fin grid0.N, win0_4.index t 0 = 0 ∧ win0_4.index t 1 = 0)
theorem xs2 : ∀ t : Fin cfg0.N, win0_2.xsize (grid0.coords t) 0 = 256 ∧ win0_2.xsize (grid0.coords t) 1 = 512 :=
  (by decide +kernel : ∀ t : Fin grid0.N, win0_2.xsize (grid0.coords t) 0 = 256 ∧ win0_2.xsize (grid0.coords t) 1 = 512)
theorem xs3 : ∀ t : Fin cfg0.N, win0_3.xsize (grid0.coords t) 0 = 256 ∧ win0_3.xsize (grid0.coords t) 1 = 8192 :=
  (by decide +kernel : ∀ t : Fin grid0.N, win0_3.xsize (grid0.coords t) 0 = 256 ∧ win0_3.xsize (grid0.coords t) 1 = 8192)
theorem xs4 : ∀ t : Fin cfg0.N, win0_4.xsize (grid0.coords t) 0 = 256 ∧ win0_4.xsize (grid0.coords t) 1 = 512 :=
  (by decide +kernel : ∀ t : Fin grid0.N, win0_4.xsize (grid0.coords t) 0 = 256 ∧ win0_4.xsize (grid0.coords t) 1 = 512)

/-! ## The argument and its transpose, as the launch finds them -/

/-- The argument x on core `c`. -/
abbrev X (c : Dev nD) : S256x512.Idx → EReal := m ((c : Thread nD τ).loc main_arg0)

/-- The launch finds the host's transpose of x in the second operand. -/
theorem V_main_v0 (c : Dev nD) :
    (V m c main_v0 : S512x256.Idx → EReal) = transpose S512x256 [1, 0] (X m c) transposes_S256x512_S512x256_1_0 := by
  show StableHlo.after hostOps0 (fun b => m (c, b)) (Proc.devRef .tc main_v0) = _
  after_results <;> rfl

/-- The block of x at any point is x. -/
theorem iblk0_apply (c : Dev nD) (t : Fin cfg0.N) (z : S256x512.Idx) :
    (iblk m c 0 t : FVec Ideal S256x512 .f32) z = X m c z := by
  unfold iblk
  rw [View.read_apply]
  show V m c main_arg0 _ = _
  rw [V_main_arg0]
  show X m c _ = X m c z
  congr 1
  funext a
  apply Fin.ext
  match a with
  | ⟨0, _⟩ => show win0_0.index t 0 * 256 + 1 * (z 0).val = (z 0).val; rw [(idx0 t).1]; omega
  | ⟨1, _⟩ => show win0_0.index t 1 * 512 + 1 * (z 1).val = (z 1).val; rw [(idx0 t).2]; omega

/-- The tile of the transpose at point `t` holds, at (l, b), the entry x[b, 16 t + l]. -/
theorem iblk1_apply (c : Dev nD) (t : Fin cfg0.N) (z : S16x256.Idx) (k : S256x512.Idx)
    (hk0 : (k 0).val = (z 1).val) (hk1 : (k 1).val = 16 * t.val + (z 0).val) :
    (iblk m c 1 t : FVec Ideal S16x256 .f32) z = X m c k := by
  have hz0 : (z 0).val < 16 := (z 0).isLt
  have hz1 : (z 1).val < 256 := (z 1).isLt
  have hN : t.val < 32 := lt_of_lt_of_eq t.isLt (show cfg0.N = 32 from N_0)
  unfold iblk
  rw [View.read_apply]
  show (V m c main_v0 : S512x256.Idx → EReal) _ = _
  rw [V_main_v0]
  refine transpose_apply [1, 0] _ _ _ k (fun b => ?_)
  match b with
  | ⟨0, _⟩ => show (k 1).val = win0_1.index t 0 * 16 + 1 * (z 0).val; rw [(idx1 t).1, hk1]; omega
  | ⟨1, _⟩ => show (k 0).val = win0_1.index t 1 * 256 + 1 * (z 1).val; rw [(idx1 t).2, hk0]; omega

/-! ## The three result arrays -/

/-- Entry (b, n) of the products array takes x at (b, n / 512) -/
abbrev leftIdx (i : S256x262144.Idx) : S256x512.Idx := fun a => match a with
  | ⟨0, _⟩ => ⟨(i 0).val, (i 0).isLt⟩
  | ⟨1, _⟩ => ⟨(i 1).val / 512, by have h1 : (i 1).val < 262144 := (i 1).isLt; show (i 1).val / 512 < 512; omega⟩
/-- and at (b, n mod 512). -/
abbrev rightIdx (i : S256x262144.Idx) : S256x512.Idx := fun a => match a with
  | ⟨0, _⟩ => ⟨(i 0).val, (i 0).isLt⟩
  | ⟨1, _⟩ => ⟨(i 1).val % 512, by show (i 1).val % 512 < 512; omega⟩

/-- sin x. -/
def sinArr (c : Dev nD) : S256x512.Idx → EReal := Host.sin (F := Ideal) (φ := .f32) (X m c)
/-- The products x[b, i] * x[b, j], laid out with i slow and j fast. -/
def pairArr (c : Dev nD) : S256x262144.Idx → EReal := fun i => X m c (leftIdx i) * X m c (rightIdx i)

/-- A block of the first result array (the whole array, at every point) read at an index. -/
theorem read_blk2 (c : Dev nD) (t : Fin cfg0.N) (G : S256x512.Idx → EReal) (y : S256x512.Idx) :
    ((cfg0.win 2).blk t).view.read (Elt Ideal) (G : Buf (Elt Ideal) ((c : Thread nD τ).loc main_v1_0)) y = G y := by
  rw [View.read_apply]
  show G _ = G y
  congr 1
  funext a
  apply Fin.ext
  match a with
  | ⟨0, _⟩ => show win0_2.index t 0 * 256 + 1 * (y 0).val = (y 0).val; rw [(idx2 t).1]; omega
  | ⟨1, _⟩ => show win0_2.index t 1 * 512 + 1 * (y 1).val = (y 1).val; rw [(idx2 t).2]; omega

/-- The same for the third. -/
theorem read_blk4 (c : Dev nD) (t : Fin cfg0.N) (G : S256x512.Idx → EReal) (y : S256x512.Idx) :
    ((cfg0.win 4).blk t).view.read (Elt Ideal) (G : Buf (Elt Ideal) ((c : Thread nD τ).loc main_v1_2)) y = G y := by
  rw [View.read_apply]
  show G _ = G y
  congr 1
  funext a
  apply Fin.ext
  match a with
  | ⟨0, _⟩ => show win0_4.index t 0 * 256 + 1 * (y 0).val = (y 0).val; rw [(idx4 t).1]; omega
  | ⟨1, _⟩ => show win0_4.index t 1 * 512 + 1 * (y 1).val = (y 1).val; rw [(idx4 t).2]; omega

/-- Block `t` of the second result array at (b, q) is the array at (b, 8192 t + q). -/
theorem read_blk3 (c : Dev nD) (t : Fin cfg0.N) (G : S256x262144.Idx → EReal) (y : S256x8192.Idx) (k : S256x262144.Idx)
    (hk0 : (k 0).val = (y 0).val) (hk1 : (k 1).val = 8192 * t.val + (y 1).val) :
    ((cfg0.win 3).blk t).view.read (Elt Ideal) (G : Buf (Elt Ideal) ((c : Thread nD τ).loc main_v1_1)) y = G k := by
  rw [View.read_apply]
  show G _ = G k
  congr 1
  funext a
  apply Fin.ext
  match a with
  | ⟨0, _⟩ => show win0_3.index t 0 * 256 + 1 * (y 0).val = (k 0).val; rw [(idx3 t).1, hk0]; omega
  | ⟨1, _⟩ => show win0_3.index t 1 * 8192 + 1 * (y 1).val = (k 1).val; rw [(idx3 t).2, hk1]; omega

/-! ## What the write-backs write -/

/-- The first result's write-back writes sin x. -/
theorem flushed2_eq (c : Dev nD) (t : Fin cfg0.N) (hf : (cfg0.win 2).flush t = true) :
    (dats m 0 c).flushed 2 t = ((cfg0.win 2).blk t).view.read (Elt Ideal) (sinArr m c : Buf (Elt Ideal) ((c : Thread nD τ).loc main_v1_0)) := by
  show (cfg0.win 2).cut (grid0.coords t) ((dats m 0 c).after 2 t) = _
  rw [after0_2]
  unfold sinOut
  rw [stored_sin]
  funext y
  refine Eq.trans ?_ (read_blk2 c t (sinArr m c) y).symm
  show Ideal.sin (iblk m c 0 tFirst y) = Ideal.sin (X m c y)
  rw [iblk0_apply m c tFirst y]

/-- The third result's write-back writes x. -/
theorem flushed4_eq (c : Dev nD) (t : Fin cfg0.N) (hf : (cfg0.win 4).flush t = true) :
    (dats m 0 c).flushed 4 t = ((cfg0.win 4).blk t).view.read (Elt Ideal) (X m c : Buf (Elt Ideal) ((c : Thread nD τ).loc main_v1_2)) := by
  show (cfg0.win 4).cut (grid0.coords t) ((dats m 0 c).after 4 t) = _
  rw [after0_4]
  unfold identOut
  rw [stored_copy]
  funext y
  refine Eq.trans ?_ (read_blk4 c t (X m c) y).symm
  exact iblk0_apply m c tLast y

/-- Entry (b, q) of block `t` of the products array is its entry (b, 8192 t + q); -/
abbrev inArr (t : Fin cfg0.N) (y : S256x8192.Idx) : S256x262144.Idx := fun a => match a with
  | ⟨0, _⟩ => ⟨(y 0).val, (y 0).isLt⟩
  | ⟨1, _⟩ => ⟨8192 * t.val + (y 1).val, by
      have hy1 : (y 1).val < 8192 := (y 1).isLt
      have hN : t.val < 32 := lt_of_lt_of_eq t.isLt (show cfg0.N = 32 from N_0)
      show 8192 * t.val + (y 1).val < 262144; omega⟩
/-- its left factor is x at (b, 16 t + q / 512). -/
abbrev srcOf (t : Fin cfg0.N) (y : S256x8192.Idx) : S256x512.Idx := fun a => match a with
  | ⟨0, _⟩ => ⟨(y 0).val, (y 0).isLt⟩
  | ⟨1, _⟩ => ⟨16 * t.val + (y 1).val / 512, by
      have hy1 : (y 1).val < 8192 := (y 1).isLt
      have hN : t.val < 32 := lt_of_lt_of_eq t.isLt (show cfg0.N = 32 from N_0)
      show 16 * t.val + (y 1).val / 512 < 512; omega⟩

/-- A point's products, from the argument: at (b, q) the product x[b, 16 t + q / 512] * x[b, q mod 512], which is
    the products array at (b, 8192 t + q). -/
theorem pairBlk_eq (c : Dev nD) (t : Fin cfg0.N) (y : S256x8192.Idx) :
    pairBlk (iblk m c 0 t) (iblk m c 1 t) y
      = ((cfg0.win 3).blk t).view.read (Elt Ideal) (pairArr m c : Buf (Elt Ideal) ((c : Thread nD τ).loc main_v1_1)) y := by
  have hy0 : (y 0).val < 256 := (y 0).isLt
  have hy1 : (y 1).val < 8192 := (y 1).isLt
  have hN : t.val < 32 := lt_of_lt_of_eq t.isLt (show cfg0.N = 32 from N_0)
  refine Eq.trans ?_ (read_blk3 c t (pairArr m c) y (inArr t y) rfl rfl).symm
  unfold pairBlk pairArr
  refine congr (congrArg HMul.hMul ?_) ?_
  · refine (iblk1_apply m c t (tileIdx y) (srcOf t y) rfl rfl).trans ?_
    refine congrArg (X m c) (funext fun a => Fin.ext ?_)
    match a with
    | ⟨0, _⟩ => rfl
    | ⟨1, _⟩ => show 16 * t.val + (y 1).val / 512 = (8192 * t.val + (y 1).val) / 512; omega
  · refine (iblk0_apply m c t (colIdx y)).trans ?_
    refine congrArg (X m c) (funext fun a => Fin.ext ?_)
    match a with
    | ⟨0, _⟩ => rfl
    | ⟨1, _⟩ => show (y 1).val % 512 = (8192 * t.val + (y 1).val) % 512; omega

/-- The second result's write-back at point `t` writes block `t` of the products array. -/
theorem flushed3_eq (c : Dev nD) (t : Fin cfg0.N) (hf : (cfg0.win 3).flush t = true) :
    (dats m 0 c).flushed 3 t = ((cfg0.win 3).blk t).view.read (Elt Ideal) (pairArr m c : Buf (Elt Ideal) ((c : Thread nD τ).loc main_v1_1)) := by
  show (cfg0.win 3).cut (grid0.coords t) ((dats m 0 c).after 3 t) = _
  rw [after0_3]
  funext y
  rw [← pairBlk_eq m c t y]
  by_cases h0 : t.val % 32 = 0
  · have h1 : ¬t.val % 32 = 31 := by omega
    rw [pairOut_A m c t h0 h1]; exact stored_pair_A c _ _ _ _ _ _ _ _ _ _ _ _ _ _ _ y
  · by_cases h1 : t.val % 32 = 31
    · rw [pairOut_C m c t h0 h1]; exact stored_pair_C c _ _ _ _ _ _ _ _ _ _ _ _ _ _ _ y
    · rw [pairOut_B m c t h0 h1]; exact stored_pair_B c _ _ _ _ _ _ _ _ _ _ _ _ _ _ _ y

/-! ## The arrays after the launch -/

theorem final2 (c : Dev nD) : (dats m 0 c).arrAt 2 cfg0.N = (sinArr m c : Buf (Elt Ideal) ((c : Thread nD τ).loc main_v1_0)) :=
  (dats m 0 c).arrAt_eq_of_cover 2 _ (flushed2_eq m c) fun i =>
    ⟨tLast, flushAt0_2 tLast last_c1, by
      show i ∈ ((View.whole main_v1_0).slice (win0_2.rect tLast)).set
      rw [View.set_slice_whole, Rect.mem_set_unit]
      intro a
      have h0 : (i 0 : Nat) < 256 := (i 0).isLt
      have h1 : (i 1 : Nat) < 512 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [(idx2 tLast).1, (xs2 tLast).1]; omega
      | ⟨1, _⟩ => show win0_2.index tLast 1 * win0_2.size 1 ≤ (i 1 : Nat) ∧ (i 1 : Nat) < win0_2.index tLast 1 * win0_2.size 1 + win0_2.xsize (grid0.coords tLast) 1
                  rw [(idx2 tLast).2, (xs2 tLast).2]; omega⟩

theorem flushAt0_4 : (cfg0.win 4).flush tLast = true := (flush0_4 tLast).mpr rfl

theorem final4 (c : Dev nD) : (dats m 0 c).arrAt 4 cfg0.N = (X m c : Buf (Elt Ideal) ((c : Thread nD τ).loc main_v1_2)) :=
  (dats m 0 c).arrAt_eq_of_cover 4 _ (flushed4_eq m c) fun i =>
    ⟨tLast, flushAt0_4, by
      show i ∈ ((View.whole main_v1_2).slice (win0_4.rect tLast)).set
      rw [View.set_slice_whole, Rect.mem_set_unit]
      intro a
      have h0 : (i 0 : Nat) < 256 := (i 0).isLt
      have h1 : (i 1 : Nat) < 512 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [(idx4 tLast).1, (xs4 tLast).1]; omega
      | ⟨1, _⟩ => show win0_4.index tLast 1 * win0_4.size 1 ≤ (i 1 : Nat) ∧ (i 1 : Nat) < win0_4.index tLast 1 * win0_4.size 1 + win0_4.xsize (grid0.coords tLast) 1
                  rw [(idx4 tLast).2, (xs4 tLast).2]; omega⟩

/-- The 32 column blocks cover the products array: column n lies in block n / 8192. -/
theorem final3 (c : Dev nD) : (dats m 0 c).arrAt 3 cfg0.N = (pairArr m c : Buf (Elt Ideal) ((c : Thread nD τ).loc main_v1_1)) :=
  (dats m 0 c).arrAt_eq_of_cover 3 _ (flushed3_eq m c) fun i => by
    have h0 : (i 0 : Nat) < 256 := (i 0).isLt
    have h1 : (i 1 : Nat) < 262144 := (i 1).isLt
    have hN : cfg0.N = 32 := N_0
    obtain ⟨t, ht⟩ : ∃ t : Fin cfg0.N, t.val = (i 1 : Nat) / 8192 := ⟨⟨(i 1 : Nat) / 8192, by rw [hN]; omega⟩, rfl⟩
    refine ⟨t, flush0_3 t, ?_⟩
    show i ∈ ((View.whole main_v1_1).slice (win0_3.rect t)).set
    rw [View.set_slice_whole, Rect.mem_set_unit]
    intro a
    match a with
    | ⟨0, _⟩ => show win0_3.index t 0 * win0_3.size 0 ≤ (i 0 : Nat) ∧ (i 0 : Nat) < win0_3.index t 0 * win0_3.size 0 + win0_3.xsize (grid0.coords t) 0
                rw [(idx3 t).1, (xs3 t).1]; omega
    | ⟨1, _⟩ => show win0_3.index t 1 * win0_3.size 1 ≤ (i 1 : Nat) ∧ (i 1 : Nat) < win0_3.index t 1 * win0_3.size 1 + win0_3.xsize (grid0.coords t) 1
                rw [(idx3 t).2, (xs3 t).2, ht]
                show (i 1 : Nat) / 8192 * 8192 ≤ (i 1 : Nat) ∧ (i 1 : Nat) < (i 1 : Nat) / 8192 * 8192 + 8192
                omega

/-! ## The entry function's result -/

/-- sin x, the products and x side by side. -/
def result (c : Dev nD) : Buf (Elt Ideal) ((c : Thread nD τ).loc main_v2) :=
  concatenate S256x263168 1 [⟨S256x512, sinArr m c⟩, ⟨S256x262144, pairArr m c⟩, ⟨S256x512, X m c⟩] concatenates_S256x512_S256x262144_S256x512_S256x263168_d1

/-- The concatenation after the launch reads the three arrays the write-backs left. -/
theorem tail_eq (c : Dev nD) :
    Pipeline.afterTail₀ cfgs (dats m) 0 (V0 m) [hostOps1] c main_v2 = result m c := by
  have e2 : Pipeline.withArrays (cfgs 0).spec c (V0 m c) (fun w => (dats m 0 c).arrAt w (cfgs 0).N) (Proc.devRef .tc main_v1_0) = sinArr m c :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v1_1) = pairArr m c :=
    (Pipeline.withArrays_arr spec0 launch0.win.arr_inj c _ _ 3).trans (final3 m c)
  have e4 : Pipeline.withArrays (cfgs 0).spec c (V0 m c) (fun w => (dats m 0 c).arrAt w (cfgs 0).N) (Proc.devRef .tc main_v1_2) = X m c :=
    (Pipeline.withArrays_arr spec0 launch0.win.arr_inj c _ _ 4).trans (final4 m c)
  unfold Pipeline.afterTail₀
  show StableHlo.after hostOps1 _ (Proc.devRef .tc main_v2) = _
  after_results
  show concatenate S256x263168 1
      [⟨S256x512, Pipeline.withArrays (cfgs 0).spec c (V0 m c) (fun w => (dats m 0 c).arrAt w (cfgs 0).N) (Proc.devRef .tc main_v1_0)⟩,
       ⟨S256x262144, Pipeline.withArrays (cfgs 0).spec c (V0 m c) (fun w => (dats m 0 c).arrAt w (cfgs 0).N) (Proc.devRef .tc main_v1_1)⟩,
       ⟨S256x512, Pipeline.withArrays (cfgs 0).spec c (V0 m c) (fun w => (dats m 0 c).arrAt w (cfgs 0).N) (Proc.devRef .tc main_v1_2)⟩]
      concatenates_S256x512_S256x262144_S256x512_S256x263168_d1 = _
  rw [e2, e3, e4]
  rfl

/-- The kernel's run, read: from any memory with zero counters every weakly fair execution of the entry function
    terminates with the result buffer at `result` and the argument as given. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (tail_eq m c),
       ((h c).1 0).trans (((dats m 0 c).arrAt_in 0 rfl _).trans ((A_eq m c 0).trans (V_main_arg0 m c)))⟩)
    (run_main (F := Ideal) m ρ)

end Cert.KernelIdeal.Contents

end
-- ==== Proof.SameArray.lean ====
/-
  The reference computes the same array. With x the argument, its result is the concatenation along the columns
  of sin x, of the reshape to 256 x 262144 of the 256 x 512 x 512 array x[b, i] * x[b, j] (x broadcast along j
  times x broadcast along i), and of x. Read at an index through the generated stage lemmas, entry (b, n) of the
  reshaped product is x[b, n / 512] * x[b, n mod 512]: the row-major position of (b, i, j) in 256 x 512 x 512 is
  that of (b, 512 i + j) in 256 x 262144. These are the three arrays the kernel's write-backs leave, in the same
  order, so the two concatenations are one term.
-/
import proofs.«135478_j13821204759158_1_alg».proof.Proof.KernelIdeal.Arrays
import proofs.«135478_j13821204759158_1_alg».proof.Proof.Gen.ReferenceIdeal.Read

noncomputable section

namespace Cert.SameArray

open Idealize.ShloMosaic Idealize.ShloMosaic.TcCoe Idealize.SL.Sem
open Cert.ReferenceIdeal.Read

/-- The reference's products, at an index: x at (b, n / 512) times x at (b, n mod 512). -/
theorem ref_pair (x : Cert.KernelIdeal.S256x512.Idx → EReal) (i : Cert.KernelIdeal.S256x262144.Idx) :
    val_main_v6 (F := Ideal) x i = x (Cert.KernelIdeal.Contents.leftIdx i) * x (Cert.KernelIdeal.Contents.rightIdx i) := by
  have h0 : (i 0).val < 256 := (i 0).isLt
  have h1 : (i 1).val < 262144 := (i 1).isLt
  rw [val_main_v6_apply, val_main_v5_apply, val_main_v3_apply, val_main_v1_apply, val_main_v4_apply, val_main_v2_apply]
  show x _ * x _ = x _ * x _
  refine congr (congrArg HMul.hMul (congrArg x (funext fun a => Fin.ext ?_))) (congrArg x (funext fun a => Fin.ext ?_))
  · match a with
    | ⟨0, _⟩ => show ((i 0).val * 262144 + (i 1).val) / 262144 = (i 0).val; omega
    | ⟨1, _⟩ => show ((i 0).val * 262144 + (i 1).val) / 512 % 512 = (i 1).val / 512; omega
  · match a with
    | ⟨0, _⟩ => show ((i 0).val * 262144 + (i 1).val) / 262144 = (i 0).val; omega
    | ⟨1, _⟩ => show ((i 0).val * 262144 + (i 1).val) % 512 = (i 1).val % 512; omega

/-- The reference's result, from an argument equal to the kernel's, is the kernel's result. -/
theorem ref_result (m : (ℓ : Loc Cert.KernelIdeal.nD Cert.KernelIdeal.τ Cert.KernelIdeal.sig) → Buf (Elt Ideal) ℓ)
    (c : Dev Cert.KernelIdeal.nD) (x' : Cert.KernelIdeal.S256x512.Idx → EReal)
    (hx : x' = Cert.KernelIdeal.Contents.X m c) :
    val_main_v7 (F := Ideal) x' = Cert.KernelIdeal.Contents.result m c := by
  subst hx
  have h6 : val_main_v6 (F := Ideal) (Cert.KernelIdeal.Contents.X m c) = Cert.KernelIdeal.Contents.pairArr m c :=
    funext fun i => ref_pair _ i
  unfold val_main_v7 Cert.KernelIdeal.Contents.result
  rw [h6]
  rfl

end Cert.SameArray

end
-- ==== Proof.lean ====
/-
  The certificate. The kernel's entry function transposes x on the host, launches one kernel over a grid of 32
  points and concatenates the launch's three results; the reference is eight host operations. Both end with the
  256 x 263168 array whose columns are sin x, then the products x[b, i] * x[b, j] with i slow and j fast, then x:
  no algebraic law is needed beyond reading both programs' layout operations at an index, so the precondition
  (finite inputs) is never opened.
  The three frames: the kernel's and its idealization's by the launch theorem for a region followed by host lines,
  over the body's triple in its three cases (first point, middle points, last point); the reference's by its
  generated run with the result dropped. The idealization rewrote no operation. The value claim: the kernel's run
  read through its write-backs, the reference's run read stage by stage, one array.
-/
import proofs.«135478_j13821204759158_1_alg».proof.Defs
import proofs.«135478_j13821204759158_1_alg».proof.Proof.Gen.Kernel
import proofs.«135478_j13821204759158_1_alg».proof.Proof.Gen.Kernel.Skeleton
import proofs.«135478_j13821204759158_1_alg».proof.Proof.Gen.Kernel.Launch
import proofs.«135478_j13821204759158_1_alg».proof.Proof.Gen.Kernel.Points
import proofs.«135478_j13821204759158_1_alg».proof.Proof.Gen.KernelIdeal
import proofs.«135478_j13821204759158_1_alg».proof.Proof.Gen.KernelIdeal.Skeleton
import proofs.«135478_j13821204759158_1_alg».proof.Proof.Gen.KernelIdeal.Launch
import proofs.«135478_j13821204759158_1_alg».proof.Proof.Gen.KernelIdeal.Points
import proofs.«135478_j13821204759158_1_alg».proof.Proof.Gen.ReferenceIdeal
import proofs.«135478_j13821204759158_1_alg».proof.Proof.Gen.Pre_finite_inputs
import proofs.«135478_j13821204759158_1_alg».proof.Proof.Gen.ReferenceIdeal.Run
import proofs.«135478_j13821204759158_1_alg».proof.Proof.Gen.ReferenceIdeal.Read
import proofs.«135478_j13821204759158_1_alg».proof.Proof.Kernel.Whole
import proofs.«135478_j13821204759158_1_alg».proof.Proof.KernelIdeal.Whole
import proofs.«135478_j13821204759158_1_alg».proof.Proof.KernelIdeal.Arrays
import proofs.«135478_j13821204759158_1_alg».proof.Proof.SameArray
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Around.frame m ρ

theorem frame_ki : Cert.frame_KernelIdeal (hKernelIdeal := Cert.KernelIdeal.Gen.facts) (hPre_finite_inputs := Cert.Pre_finite_inputs.Gen.facts) :=
  fun m ρ _ => Cert.KernelIdeal.Around.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with sin x, the products and x side by side. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Contents.result m c, Cert.KernelIdeal.Contents.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  exact Cert.SameArray.ref_result m c _ (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
